-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x512 : Shape := ⟨3, ![4, 4096, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel

variable [Facts]

def fn {F : FTy → Type} [FloatOps F] (main_arg0 : FVec F S4x4096x512 .f32) (main_arg1 : FVec F S4x4096x512 .f32) (main_arg2 : FVec F S4x4096x512 .f32) : IVec S_ 1 :=
  let main_v0 : FVec F S4x4096x512 .f32 := Host.absf main_arg0
  let main_cst : FVec F S_ .f32 := constant S_ .f32 0x7F800000#32
  let main_v1 : FVec F S4x4096x512 .f32 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x512 .f32 := Host.absf main_arg2
  let main_cst_2 : FVec F S_ .f32 := constant S_ .f32 0x7F800000#32
  let main_v10 : FVec F S4x4096x512 .f32 := broadcastInDim S4x4096x512 ![] bcast_S_S4x4096x512 main_cst_2
  let main_v11 : IVec S4x4096x512 1 := cmpf .olt main_v9 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v8 main_v12
  main_v13
-- ==== Kernel.lean ====
abbrev S4x4096x512 : Shape := ⟨3, ![4, 4096, 512]⟩
abbrev S1x2048x512 : Shape := ⟨3, ![1, 2048, 512]⟩
abbrev S1x512x512 : Shape := ⟨3, ![1, 512, 512]⟩
abbrev S2048x1 : Shape := ⟨2, ![2048, 1]⟩
abbrev S2048x512 : Shape := ⟨2, ![2048, 512]⟩
abbrev S512x512 : Shape := ⟨2, ![512, 512]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .bf16⟩
  | .hbm, ⟨4, _⟩ => ⟨S4x4096x512, .bf16⟩
  | .hbm, ⟨5, _⟩ => ⟨S4x4096x512, .bf16⟩
  | .hbm, ⟨6, _⟩ => ⟨S4x4096x512, .f32⟩
  | .local _ .vmem, ⟨0, _⟩ => ⟨S1x2048x512, .bf16⟩
  | .local _ .vmem, ⟨1, _⟩ => ⟨S1x2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x2048x512, .f32⟩
  | .local _ .vmem, ⟨7, _⟩ => ⟨S1x2048x512, .f32⟩
  | .local _ .vmem, ⟨8, _⟩ => ⟨S2048x1, .f32⟩
  | .local _ .vmem, ⟨9, _⟩ => ⟨S2048x1, .f32⟩
  | .local _ .vmem, ⟨10, _⟩ => ⟨S2048x512, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_27 : BitVec 32 := 0#32
  let v44 : BitVec 1 := Scalar.cmpi .ne v43 c0_i32_27
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  reduces_S2048x512_S2048 : S2048x512.Reduces [1] S2048
  shapeCasts_S2048_S2048x1 : S2048.ShapeCasts S2048x1
  broadcasts_S2048x1_S2048x512 : S2048x1.Broadcasts S2048x512
  shapeCasts_S2048x512_S1x2048x512 : S2048x512.ShapeCasts S1x2048x512
  dot_S2048x512_S512x512_S2048x512_1_1_0_0_n_n_wf : DotDims.WF S2048x512 S512x512 S2048x512 [1] [1] [0] [0] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x4096x512.size a
  hwx0_0 : ∀ i : grid0.Coords, EltTy.bits .bf16 = 32 ∨ (Rect.block (s := S4x4096x512) S1x2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x4096x512.size a
  hwx0_1 : ∀ i : grid0.Coords, EltTy.bits .bf16 = 32 ∨ (Rect.block (s := S4x4096x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S4x4096x512.size a
  hwx0_2 : ∀ i : grid0.Coords, EltTy.bits .bf16 = 32 ∨ (Rect.block (s := S4x4096x512) S1x512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S4x4096x512.size a
  hwx0_3 : ∀ i : grid0.Coords, EltTy.bits .f32 = 32 ∨ (Rect.block (s := S4x4096x512) S1x2048x512.size (cc0_transform_3 i) (hinb0_3 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x512 : Shape := ⟨3, ![4, 4096, 512]⟩
abbrev S4x256x16x512 : Shape := ⟨4, ![4, 256, 16, 512]⟩
abbrev S4x16x256x512 : Shape := ⟨4, ![4, 16, 256, 512]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x256x16x512, .f32⟩
  | .hbm, ⟨4, _⟩ => ⟨S4x16x256x512, .f32⟩
  | .hbm, ⟨5, _⟩ => ⟨S4x4096x512, .f32⟩
  | .hbm, ⟨6, _⟩ => ⟨S4x256x16x512, .f32⟩
  | .hbm, ⟨7, _⟩ => ⟨S4x16x256x512, .f32⟩
  | .hbm, ⟨8, _⟩ => ⟨S4x4096x512, .f32⟩
  | .hbm, ⟨9, _⟩ => ⟨S4x256x16x512, .f32⟩
  | .hbm, ⟨10, _⟩ => ⟨S4x16x256x512, .f32⟩
  | .hbm, ⟨11, _⟩ => ⟨S4x4096x512, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096, .f32⟩
  | .hbm, ⟨18, _⟩ => ⟨S_, .f32⟩
  | .hbm, ⟨19, _⟩ => ⟨S4x4096, .f32⟩
  | .hbm, ⟨20, _⟩ => ⟨S4x4096, .f32⟩
  | .hbm, ⟨21, _⟩ => ⟨S4x4096x1, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S4x4096x4096, .f32⟩
  | .hbm, ⟨29, _⟩ => ⟨S4x4096x4096, .f32⟩
  | .hbm, ⟨30, _⟩ => ⟨S4x4096x512, .f32⟩
  | .hbm, ⟨31, _⟩ => ⟨S4x16x256x512, .f32⟩
  | .hbm, ⟨32, _⟩ => ⟨S4x256x16x512, .f32⟩
  | .hbm, ⟨33, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S4x4096x512_S4x256x16x512 : S4x4096x512.ShapeCasts S4x256x16x512
  transposes_S4x256x16x512_S4x16x256x512_0_2_1_3 : S4x256x16x512.Transposes [0, 2, 1, 3] S4x16x256x512
  shapeCasts_S4x16x256x512_S4x4096x512 : S4x16x256x512.ShapeCasts S4x4096x512
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  shapeCasts_S4x4096x512_S4x16x256x512 : S4x4096x512.ShapeCasts S4x16x256x512
  transposes_S4x16x256x512_S4x256x16x512_0_2_1_3 : S4x16x256x512.Transposes [0, 2, 1, 3] S4x256x16x512
  shapeCasts_S4x256x16x512_S4x4096x512 : S4x256x16x512.ShapeCasts S4x4096x512
  dot_S4x4096x512_S4x4096x512_S4x4096x4096_2_2_1_1_0_0_wf : DotDims.WF S4x4096x512 S4x4096x512 S4x4096x4096 [2] [2] [1] [1] [0] [0]
  dot_S4x4096x4096_S4x4096x512_S4x4096x512_2_1_1_2_0_0_wf : DotDims.WF S4x4096x4096 S4x4096x512 S4x4096x512 [2] [1] [1] [2] [0] [0]

variable [Facts₀]

def dot_S4x4096x512_S4x4096x512_S4x4096x4096_2_2_1_1_0_0 : DotDims S4x4096x512 S4x4096x512 S4x4096x4096 where
  lhsContracting := [2]
  rhsContracting := [2]
  lhsNonContracting := [1]
  rhsNonContracting := [1]
  lhsBatch := [0]
  rhsBatch := [0]
  wf := dot_S4x4096x512_S4x4096x512_S4x4096x4096_2_2_1_1_0_0_wf
def dot_S4x4096x4096_S4x4096x512_S4x4096x512_2_1_1_2_0_0 : DotDims S4x4096x4096 S4x4096x512 S4x4096x512 where
  lhsContracting := [2]
  rhsContracting := [1]
  lhsNonContracting := [1]
  rhsNonContracting := [2]
  lhsBatch := [0]
  rhsBatch := [0]
  wf := dot_S4x4096x4096_S4x4096x512_S4x4096x512_2_1_1_2_0_0_wf

class Facts : Prop extends Facts₀ where

variable [Facts]
-- ==== Proof.Spec.lean ====
/-
  The specification: dense softmax attention of one batch row, as one function of the three argument arrays.

  For q, k, v : [4, 4096, 512] the score of query row r against key row j of batch b is
      s b r j = (∑ d, q[b, r, d] · k[b, j, d]) · (1/8),
  and the result is
      out[b, r, e] = (∑ j, exp (s b r j) · v[b, j, e]) / (∑ j, exp (s b r j)).
  A softmax computed with any shift M subtracted from the scores before the exponential, the shift of the
  numerically stable form, is this quotient: numerator and denominator both carry the factor exp (-M).
  The function is written over the real parts of the entries; on arrays of finite entries those are the
  entries themselves.
-/
import Idealize.ShloMosaic.PureOps.Ideal.Laws
import Idealize.ShloMosaic.Lib.ValueIdx

noncomputable section

open scoped BigOperators

namespace Cert.Attn

open Idealize.ShloMosaic Idealize.ShloMosaic.ValueIdx

/-- An array [4, 4096, 512] of extended reals. -/
abbrev Arr : Type := (⟨3, ![4, 4096, 512]⟩ : Shape).Idx → EReal

/-- Every entry of the array is a real number. -/
def Finite (X : Arr) : Prop := ∀ i, ∃ r : ℝ, X i = (r : EReal)

theorem Finite.coe_toReal {X : Arr} (h : Finite X) (i) : ((X i).toReal : EReal) = X i := by
  obtain ⟨r, hr⟩ := h i
  rw [hr, EReal.toReal_coe]

/-- The scaled score of query row `r` against key row `j` in batch `b`. -/
def score (Q K : Arr) (b : Fin 4) (r j : Fin 4096) : ℝ :=
  (∑ d : Fin 512, (Q (ix3 b r d)).toReal * (K (ix3 b j d)).toReal) * (1 / 8)

/-- The softmax denominator of query row `r`: the sum over every key of the exponential of the score. -/
def den (Q K : Arr) (b : Fin 4) (r : Fin 4096) : ℝ := ∑ j : Fin 4096, Real.exp (score Q K b r j)

/-- The unnormalized output: the exponentials of the scores weighting column `e` of the values. -/
def num (Q K V : Arr) (b : Fin 4) (r : Fin 4096) (e : Fin 512) : ℝ :=
  ∑ j : Fin 4096, Real.exp (score Q K b r j) * (V (ix3 b j e)).toReal

/-- Dense softmax attention. -/
def attn (Q K V : Arr) : Arr := fun i => ((num Q K V (i 0) (i 1) (i 2) / den Q K (i 0) (i 1) : ℝ) : EReal)

theorem den_pos (Q K : Arr) (b : Fin 4) (r : Fin 4096) : 0 < den Q K b r :=
  Finset.sum_pos (fun _ _ => Real.exp_pos _) ⟨0, Finset.mem_univ _⟩

/-- The scale both programs multiply the scores by is the real 1/8. -/
theorem ofBits_scale : Ideal.ofBits .f32 0x3E000000#32 = ((1 / 8 : ℝ) : EReal) := by
  simp [Ideal.ofBits, Ideal.ieee]
  rw [← EReal.coe_mul]
  congr 1
  norm_num

/-- The initial value of both running maxima is -∞. -/
theorem ofBits_neg_inf : Ideal.ofBits .f32 0xFF800000#32 = ⊥ := by
  simp [Ideal.ofBits, Ideal.ieee]

/-- A finite sum of real numbers, summed in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The running maximum over a family of real numbers, started at -∞ or at a real, is a real. -/
theorem fold_max_coe {ι : Type*} (s : Finset ι) (f : ι → ℝ) (hs : s.Nonempty) :
    ∃ M : ℝ, s.fold max (⊥ : EReal) (fun i => ((f i : ℝ) : EReal)) = (M : EReal) := by
  classical
  induction s using Finset.induction_on with
  | empty => exact absurd hs Finset.not_nonempty_empty
  | insert a s ha ih =>
    rw [Finset.fold_insert ha]
    rcases s.eq_empty_or_nonempty with rfl | hne
    · exact ⟨f a, by simp⟩
    · obtain ⟨M, hM⟩ := ih hne
      refine ⟨max (f a) M, ?_⟩
      rw [hM]
      rcases le_total (f a) M with h | h
      · rw [max_eq_right h, max_eq_right (EReal.coe_le_coe_iff.mpr h)]
      · rw [max_eq_left h, max_eq_left (EReal.coe_le_coe_iff.mpr h)]

end Cert.Attn

end
-- ==== Proof.Online.lean ====
/-
  The online softmax: the algebra of accumulating a softmax over successive blocks of keys.

  Keys are processed in 8 blocks of 512. After the blocks before `n` the state holds, for the running shift `m`,
  the partial sums  ∑ exp (s - m)  and  ∑ exp (s - m) · v  over the keys seen so far. Passing to a new shift `m'`
  multiplies both by exp (m - m'), since exp (m - m') · exp (s - m) = exp (s - m'), and the new block's terms are
  added at the shift `m'`. After the last block the sums run over every key, and the quotient of the two does not
  depend on the shift.
-/
import proofs.«152014_j75703093559829_2_alg».proof.Proof.Spec

noncomputable section

open scoped BigOperators

namespace Cert.Attn

/-- The key row at position `jj` of key block `n`. -/
def key (n : ℕ) (jj : Fin 512) : Fin 4096 := ⟨(n * 512 + jj.val) % 4096, Nat.mod_lt _ (by norm_num)⟩

/-- Summing block by block over the 8 blocks of 512 keys is summing over all 4096 keys. -/
theorem sum_blocks (f : Fin 4096 → ℝ) :
    ∑ n ∈ Finset.range 8, ∑ jj : Fin 512, f (key n jj) = ∑ j, f j := by
  have h1 : ∑ n ∈ Finset.range 8, ∑ jj : Fin 512, f (key n jj)
      = ∑ n : Fin 8, ∑ jj : Fin 512, f (key n.val jj) :=
    Finset.sum_range (fun n => ∑ jj : Fin 512, f (key n jj))
  have h2 : ∑ n : Fin 8, ∑ jj : Fin 512, f (key n.val jj)
      = ∑ x : Fin 8 × Fin 512, f (key x.1.val x.2) :=
    (Fintype.sum_prod_type' (fun (n : Fin 8) (jj : Fin 512) => f (key n.val jj))).symm
  rw [h1, h2]
  -- the pair (block, position) is the key of index position + 512 · block
  refine Fintype.sum_equiv (finProdFinEquiv : Fin 8 × Fin 512 ≃ Fin (8 * 512)) _ _ ?_
  rintro ⟨a, b⟩
  congr 1
  apply Fin.ext
  have ha := a.isLt
  have hb := b.isLt
  simp only [key, finProdFinEquiv_apply_val]
  omega

/-- One step of the online softmax on the weighted sums. -/
theorem online_step (n : ℕ) (s v : ℕ → Fin 512 → ℝ) (m m' : ℝ) :
    Real.exp (m - m') * (∑ k ∈ Finset.range n, ∑ jj : Fin 512, Real.exp (s k jj - m) * v k jj)
        + ∑ jj : Fin 512, Real.exp (s n jj - m') * v n jj
      = ∑ k ∈ Finset.range (n + 1), ∑ jj : Fin 512, Real.exp (s k jj - m') * v k jj := by
  have h : Real.exp (m - m') * (∑ k ∈ Finset.range n, ∑ jj : Fin 512, Real.exp (s k jj - m) * v k jj)
      = ∑ k ∈ Finset.range n, ∑ jj : Fin 512, Real.exp (s k jj - m') * v k jj := by
    rw [Finset.mul_sum]
    refine Finset.sum_congr rfl (fun k _ => ?_)
    rw [Finset.mul_sum]
    refine Finset.sum_congr rfl (fun jj _ => ?_)
    -- exp (m - m') · exp (s - m) = exp (s - m')
    rw [← mul_assoc, ← Real.exp_add]
    congr 2
    ring
  rw [h, Finset.sum_range_succ]

/-- One step of the online softmax on the normalizer. -/
theorem online_step_one (n : ℕ) (s : ℕ → Fin 512 → ℝ) (m m' : ℝ) :
    Real.exp (m - m') * (∑ k ∈ Finset.range n, ∑ jj : Fin 512, Real.exp (s k jj - m))
        + ∑ jj : Fin 512, Real.exp (s n jj - m')
      = ∑ k ∈ Finset.range (n + 1), ∑ jj : Fin 512, Real.exp (s k jj - m') := by
  have h : Real.exp (m - m') * (∑ k ∈ Finset.range n, ∑ jj : Fin 512, Real.exp (s k jj - m))
      = ∑ k ∈ Finset.range n, ∑ jj : Fin 512, Real.exp (s k jj - m') := by
    rw [Finset.mul_sum]
    refine Finset.sum_congr rfl (fun k _ => ?_)
    rw [Finset.mul_sum]
    refine Finset.sum_congr rfl (fun jj _ => ?_)
    rw [← Real.exp_add]
    congr 1
    ring
  rw [h, Finset.sum_range_succ]

/-- A softmax-weighted mean does not depend on the shift subtracted from the scores. -/
theorem shift_quot {ι : Type*} [Fintype ι] (s v : ι → ℝ) (M : ℝ) :
    (∑ j, Real.exp (s j - M) * v j) / (∑ j, Real.exp (s j - M))
      = (∑ j, Real.exp (s j) * v j) / (∑ j, Real.exp (s j)) := by
  -- numerator and denominator both carry the factor exp (-M)
  have hn : ∑ j, Real.exp (s j - M) * v j = (∑ j, Real.exp (s j) * v j) * Real.exp (-M) := by
    rw [Finset.sum_mul]
    refine Finset.sum_congr rfl (fun j _ => ?_)
    rw [sub_eq_add_neg, Real.exp_add]
    ring
  have hd : ∑ j, Real.exp (s j - M) = (∑ j, Real.exp (s j)) * Real.exp (-M) := by
    rw [Finset.sum_mul]
    refine Finset.sum_congr rfl (fun j _ => ?_)
    rw [sub_eq_add_neg, Real.exp_add]
  rw [hn, hd, mul_div_mul_right _ _ (Real.exp_pos _).ne']

/-- The blockwise sums after the last block, divided, are the unshifted softmax-weighted mean over all keys. -/
theorem blocks_quot (s v : Fin 4096 → ℝ) (M : ℝ) :
    (∑ n ∈ Finset.range 8, ∑ jj : Fin 512, Real.exp (s (key n jj) - M) * v (key n jj))
        / (∑ n ∈ Finset.range 8, ∑ jj : Fin 512, Real.exp (s (key n jj) - M))
      = (∑ j, Real.exp (s j) * v j) / (∑ j, Real.exp (s j)) := by
  rw [sum_blocks (fun j => Real.exp (s j - M) * v j), sum_blocks (fun j => Real.exp (s j - M))]
  exact shift_quot s v M

/-- The normalized form of the reference: each weight divided by the normalizer first, then the weighted sum. -/
theorem normalized_sum {ι : Type*} [Fintype ι] (s v : ι → ℝ) (M : ℝ) :
    ∑ j, (Real.exp (s j - M) / ∑ k, Real.exp (s k - M)) * v j
      = (∑ j, Real.exp (s j) * v j) / (∑ j, Real.exp (s j)) := by
  rw [← shift_quot s v M, Finset.sum_div]
  refine Finset.sum_congr rfl (fun j _ => ?_)
  rw [div_mul_eq_mul_div]

end Cert.Attn

end
-- ==== Proof.Step.lean ====
/-
  One grid point of the kernel as three functions of what it loads.

  A point loads a block of 2048 query rows `x0`, a block of 512 key rows `x1`, a block of 512 value rows `x2`, and the
  three carried arrays: the running shift `xs0` [2048, 1], the running normalizer `xs1` [2048, 1] and the running
  weighted sums `xs2` [2048, 512]. It leaves the new shift (the larger of the old one and the block's row maximum of
  the scores), the normalizer and the weighted sums rescaled to the new shift plus the block's terms. At the first
  key block the carried arrays are the constants -∞, 0, 0.

  The grid is (4 batches, 2 query tiles, 8 key blocks), key block fastest: point `t` works on batch t / 16,
  query rows (t / 8 % 2) · 2048 + r, and key rows (t % 8) · 512 + kk.
-/
import proofs.«152014_j75703093559829_2_alg».proof.Proof.Gen.KernelIdeal.Skeleton
import proofs.«152014_j75703093559829_2_alg».proof.Proof.Online

noncomputable section

namespace Cert.Attn

/-- The batch of grid point `t`. -/
def bat (t : ℕ) : Fin 4 := ⟨t / 16 % 4, Nat.mod_lt _ (by norm_num)⟩

/-- The query row of the whole array that row `r` of grid point `t`'s query tile is. -/
def qrow (t : ℕ) (r : Fin 2048) : Fin 4096 := ⟨t / 8 % 2 * 2048 + r.val, by have := r.isLt; omega⟩

end Cert.Attn

namespace Cert.KernelIdeal.Step

open Idealize.ShloMosaic Cert.KernelIdeal Cert.KernelIdeal.Gen

variable {F : FTy → Type} [FloatOps F]

/-- The new running shift. -/
def stepM (x0 : Vec F S1x2048x512 .bf16) (x1 : Vec F S1x512x512 .bf16) (xs0 : Vec F S2048x1 .f32) : Vec F S2048x1 .f32 :=
  k0_pay2 (k0_pay9 x0 x1 xs0)

/-- The new running normalizer. -/
def stepL (x0 : Vec F S1x2048x512 .bf16) (x1 : Vec F S1x512x512 .bf16) (xs0 xs1 : Vec F S2048x1 .f32) : Vec F S2048x1 .f32 :=
  k0_pay12 x0 x1 xs0 xs0 xs1

/-- The new running weighted sums. -/
def stepA (x0 : Vec F S1x2048x512 .bf16) (x1 x2 : Vec F S1x512x512 .bf16) (xs0 : Vec F S2048x1 .f32)
    (xs2 : Vec F S2048x512 .f32) : Vec F S2048x512 .f32 :=
  k0_pay1 (k0_pay7 x2) (k0_pay10 x0 x1 xs0 xs0) (k0_pay11 x0 x1 xs0) xs2

end Cert.KernelIdeal.Step

end
-- ==== Proof.Pieces.lean ====
/-
  What each case of the kernel's body leaves in the carried arrays and in the output block, as the three updates
  of Step.lean. The body stores each carried array whole, once, after loading everything it reads; at the first key
  block it first stores the constants -∞, 0, 0 and then reads them back. So in every case the arrays end at the
  updates of what was loaded: of the constants at the first key block, of the point before's contents elsewhere.
  At the last key block the output block is the quotient of the two arrays just stored.
-/
import proofs.«152014_j75703093559829_2_alg».proof.Proof.Step
import proofs.«152014_j75703093559829_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen Cert.KernelIdeal.Step

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First key block: the shift is the update of -∞. -/
theorem scratch0_A (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond0_0 i) (hc1 : ¬cond0_1 i)
    (x0 : Vec F S1x2048x512 .bf16) (x1 : Vec F S1x512x512 .bf16) (x2 : Vec F S1x512x512 .bf16) :
    sout0_A_0 c i arg3 harg3 arg4 harg4 arg5 harg5 arg6 harg6 arg7 harg7 arg8 harg8 arg9 harg9 hc0 hc1 x0 x1 x2 = stepM x0 x1 k0_pay4 := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- First key block: the normalizer is the update of -∞ and 0. -/
theorem scratch1_A (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond0_0 i) (hc1 : ¬cond0_1 i)
    (x0 : Vec F S1x2048x512 .bf16) (x1 : Vec F S1x512x512 .bf16) (x2 : Vec F S1x512x512 .bf16) :
    sout0_A_1 c i arg3 harg3 arg4 harg4 arg5 harg5 arg6 harg6 arg7 harg7 arg8 harg8 arg9 harg9 hc0 hc1 x0 x1 x2 = stepL x0 x1 k0_pay4 k0_pay5 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x1) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- First key block: the weighted sums are the update of -∞ and 0. -/
theorem scratch2_A (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : cond0_0 i) (hc1 : ¬cond0_1 i)
    (x0 : Vec F S1x2048x512 .bf16) (x1 : Vec F S1x512x512 .bf16) (x2 : Vec F S1x512x512 .bf16) :
    sout0_A_2 c i arg3 harg3 arg4 harg4 arg5 harg5 arg6 harg6 arg7 harg7 arg8 harg8 arg9 harg9 hc0 hc1 x0 x1 x2 = stepA x0 x1 x2 k0_pay4 k0_pay6 := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S2048x512) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- A middle key block: the shift is the update of the point before's. -/
theorem scratch0_B (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond0_0 i) (hc1 : ¬cond0_1 i)
    (x0 : Vec F S1x2048x512 .bf16) (x1 : Vec F S1x512x512 .bf16) (x2 : Vec F S1x512x512 .bf16) (xs0 : Vec F S2048x1 .f32) (xs1 : Vec F S2048x1 .f32) (xs2 : Vec F S2048x512 .f32) :
    sout0_B_0 c i arg3 harg3 arg4 harg4 arg5 harg5 arg6 harg6 arg7 harg7 arg8 harg8 arg9 harg9 hc0 hc1 x0 x1 x2 xs0 xs1 xs2 = stepM x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x1) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- A middle key block: the normalizer is the update of the point before's. -/
theorem scratch1_B (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond0_0 i) (hc1 : ¬cond0_1 i)
    (x0 : Vec F S1x2048x512 .bf16) (x1 : Vec F S1x512x512 .bf16) (x2 : Vec F S1x512x512 .bf16) (xs0 : Vec F S2048x1 .f32) (xs1 : Vec F S2048x1 .f32) (xs2 : Vec F S2048x512 .f32) :
    sout0_B_1 c i arg3 harg3 arg4 harg4 arg5 harg5 arg6 harg6 arg7 harg7 arg8 harg8 arg9 harg9 hc0 hc1 x0 x1 x2 xs0 xs1 xs2 = stepL x0 x1 xs0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x1) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- A middle key block: the weighted sums are the update of the point before's. -/
theorem scratch2_B (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond0_0 i) (hc1 : ¬cond0_1 i)
    (x0 : Vec F S1x2048x512 .bf16) (x1 : Vec F S1x512x512 .bf16) (x2 : Vec F S1x512x512 .bf16) (xs0 : Vec F S2048x1 .f32) (xs1 : Vec F S2048x1 .f32) (xs2 : Vec F S2048x512 .f32) :
    sout0_B_2 c i arg3 harg3 arg4 harg4 arg5 harg5 arg6 harg6 arg7 harg7 arg8 harg8 arg9 harg9 hc0 hc1 x0 x1 x2 xs0 xs1 xs2 = stepA x0 x1 x2 xs0 xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S2048x512) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- The last key block: the shift is the update of the point before's. -/
theorem scratch0_C (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond0_0 i) (hc1 : cond0_1 i)
    (x0 : Vec F S1x2048x512 .bf16) (x1 : Vec F S1x512x512 .bf16) (x2 : Vec F S1x512x512 .bf16) (xs0 : Vec F S2048x1 .f32) (xs1 : Vec F S2048x1 .f32) (xs2 : Vec F S2048x512 .f32) :
    sout0_C_0 c i arg3 harg3 arg4 harg4 arg5 harg5 arg6 harg6 arg7 harg7 arg8 harg8 arg9 harg9 hc0 hc1 x0 x1 x2 xs0 xs1 xs2 = stepM x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x1) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- The last key block: the normalizer is the update of the point before's. -/
theorem scratch1_C (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond0_0 i) (hc1 : cond0_1 i)
    (x0 : Vec F S1x2048x512 .bf16) (x1 : Vec F S1x512x512 .bf16) (x2 : Vec F S1x512x512 .bf16) (xs0 : Vec F S2048x1 .f32) (xs1 : Vec F S2048x1 .f32) (xs2 : Vec F S2048x512 .f32) :
    sout0_C_1 c i arg3 harg3 arg4 harg4 arg5 harg5 arg6 harg6 arg7 harg7 arg8 harg8 arg9 harg9 hc0 hc1 x0 x1 x2 xs0 xs1 xs2 = stepL x0 x1 xs0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x1) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- The last key block: the weighted sums are the update of the point before's. -/
theorem scratch2_C (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond0_0 i) (hc1 : cond0_1 i)
    (x0 : Vec F S1x2048x512 .bf16) (x1 : Vec F S1x512x512 .bf16) (x2 : Vec F S1x512x512 .bf16) (xs0 : Vec F S2048x1 .f32) (xs1 : Vec F S2048x1 .f32) (xs2 : Vec F S2048x512 .f32) :
    sout0_C_2 c i arg3 harg3 arg4 harg4 arg5 harg5 arg6 harg6 arg7 harg7 arg8 harg8 arg9 harg9 hc0 hc1 x0 x1 x2 xs0 xs1 xs2 = stepA x0 x1 x2 xs0 xs2 := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S2048x512) hz2]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

/-- The last key block: the output block is the new weighted sums over the new normalizer. -/
theorem out_C (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x512 .bf16) (harg5 : arg5.IsWhole) (arg6 : Memref sig .tc .vmem S1x2048x512 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x512 .f32) (harg9 : arg9.IsWhole) (hc0 : ¬cond0_0 i) (hc1 : cond0_1 i)
    (x0 : Vec F S1x2048x512 .bf16) (x1 : Vec F S1x512x512 .bf16) (x2 : Vec F S1x512x512 .bf16) (xs0 : Vec F S2048x1 .f32) (xs1 : Vec F S2048x1 .f32) (xs2 : Vec F S2048x512 .f32) :
    out0_C_3 c i arg3 harg3 arg4 harg4 arg5 harg5 arg6 harg6 arg7 harg7 arg8 harg8 arg9 harg9 hc0 hc1 x0 x1 x2 xs0 xs1 xs2 = k0_pay3 (stepA x0 x1 x2 xs0 xs2) (stepL x0 x1 xs0 xs1) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1x2048x512) hz3]
  simp only [View.readAt_eq_ld, harg3.read_unread, harg4.read_unread, harg5.read_unread, harg7.read_unread, harg8.read_unread, harg9.read_unread, View.ld_unit_zero (S := S1x2048x512) hz3, View.ld_unit_zero (S := S1x512x512) hz3, View.ld_unit_zero (S := S2048x1) hz2, View.ld_unit_zero (S := S2048x512) hz2, View.readCov_unit_zero (S := S2048x1) _ hz2, View.readCov_unit_zero (S := S2048x512) _ hz2]
  rfl

end Cert.KernelIdeal.Pieces

end
-- ==== Proof.RowOps.lean ====
/-
  One grid point's three updates read at an index, over the extended reals.

  For query row `r` of the tile and key row `kk` of the block the scaled score is
      S r kk = (∑ d, x0[0, r, d] · x1[0, kk, d]) · (1/8 as its float word).
  The new shift at row r is max (old shift) (max over kk of S r kk, from -∞); with a = exp (old shift - new shift) the
  new normalizer is a · (old normalizer) + ∑ kk, exp (S r kk - new shift), and the new weighted sum at column e is
  a · (old weighted sum) + ∑ kk, exp (S r kk - new shift) · x2[0, kk, e]. The output divides the weighted sums by the
  normalizer of their row.
-/
import proofs.«152014_j75703093559829_2_alg».proof.Proof.Step
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Step

open Idealize.ShloMosaic Idealize.ShloMosaic.ValueIdx Cert.KernelIdeal Cert.KernelIdeal.Gen

/-- The scaled score of query row `r` of the tile against key row `kk` of the block. -/
def sc (x0 : Vec Ideal S1x2048x512 .bf16) (x1 : Vec Ideal S1x512x512 .bf16) (r : Fin 2048) (kk : Fin 512) : EReal :=
  (∑ d : Fin 512, x0 (ix3 (0 : Fin 1) r d) * x1 (ix3 (0 : Fin 1) kk d)) * Ideal.ofBits .f32 0x3E000000#32

/-! ## Layout operations at an index given by coordinates -/

/-- A column `[a]` cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The scores: the first matrix product read at an index -/

theorem lhs_scores_0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide),
    dif_pos (show (0 : Fin S2048x512.rank) ∈ dot_S2048x512_S512x512_S2048x512_1_1_0_0_n_n.lhsNonContracting by decide)]
  rfl
theorem lhs_scores_1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
theorem rhs_scores_0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide),
    dif_pos (show (0 : Fin S512x512.rank) ∈ dot_S2048x512_S512x512_S2048x512_1_1_0_0_n_n.rhsNonContracting by decide)]
  rfl
theorem rhs_scores_1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The product contracting the last axis of both operands, into the zero accumulator, at `(r, kk)`: the sum over `d`
    of the left operand at `(r, d)` times the right at `(kk, d)`. -/
theorem matmul_scores_apply (y0 : FVec Ideal S2048x512 .bf16) (y1 : FVec Ideal S512x512 .bf16) (r : Fin 2048) (kk : Fin 512) :
    matmul dot_S2048x512_S512x512_S2048x512_1_1_0_0_n_n none y0 y1 (constant (F := Ideal) S2048x512 .f32 0x00000000#32) (ix2 r kk)
      = ∑ d : Fin 512, y0 (ix2 r d) * y1 (ix2 kk d) := by
  simp only [matmul]
  rw [Ideal.matmul_constant_zero_apply,
    ← Equiv.sum_comp (ValueIdx.contrEquiv1 dot_S2048x512_S512x512_S2048x512_1_1_0_0_n_n 512 rfl rfl).symm]
  refine Finset.sum_congr rfl fun d _ => ?_
  have hk := ValueIdx.contrEquiv1_symm_val dot_S2048x512_S512x512_S2048x512_1_1_0_0_n_n 512 rfl rfl d
  have el : dot_S2048x512_S512x512_S2048x512_1_1_0_0_n_n.lhsIdx (ix2 r kk)
      ((ValueIdx.contrEquiv1 dot_S2048x512_S512x512_S2048x512_1_1_0_0_n_n 512 rfl rfl).symm d) = ix2 r d :=
    funext fun a => Fin.ext (by
      match a with
      | ⟨0, _⟩ => exact lhs_scores_0 _ _
      | ⟨1, _⟩ => exact (lhs_scores_1 _ _).trans hk)
  have er : dot_S2048x512_S512x512_S2048x512_1_1_0_0_n_n.rhsIdx (ix2 r kk)
      ((ValueIdx.contrEquiv1 dot_S2048x512_S512x512_S2048x512_1_1_0_0_n_n 512 rfl rfl).symm d) = ix2 kk d :=
    funext fun a => Fin.ext (by
      match a with
      | ⟨0, _⟩ => exact rhs_scores_0 _ _
      | ⟨1, _⟩ => exact (rhs_scores_1 _ _).trans hk)
  rw [el, er]

/-- The scaled scores of the tile against the block, at `(r, kk)`. -/
theorem scores_apply (x0 : Vec Ideal S1x2048x512 .bf16) (x1 : Vec Ideal S1x512x512 .bf16) (r : Fin 2048) (kk : Fin 512) :
    k0_pay8 x0 x1 (ix2 r kk) = sc x0 x1 r kk := by
  unfold k0_pay8 sc
  refine (mulf_apply _ _ _).trans ?_
  rw [matmul_scores_apply]
  refine congrArg₂ (· * ·) (Finset.sum_congr rfl fun d _ => ?_) rfl
  rw [shapeCast_1ab_ab_apply, shapeCast_1ab_ab_apply]

/-! ## The weighted sums: the second matrix product read at an index -/

theorem lhs_pv_0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhs_pv_1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_pv_0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_pv_1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The plain product, into the zero accumulator, at `(r, e)`: the sum over `kk` of the left operand at `(r, kk)`
    times the right at `(kk, e)`. -/
theorem matmul_pv_apply (y0 : FVec Ideal S2048x512 .bf16) (y1 : FVec Ideal S512x512 .bf16) (r : Fin 2048) (e : Fin 512) :
    matmul dot_S2048x512_S512x512_S2048x512_1_0_0_1_n_n none y0 y1 (constant (F := Ideal) S2048x512 .f32 0x00000000#32) (ix2 r e)
      = ∑ kk : Fin 512, y0 (ix2 r kk) * y1 (ix2 kk e) := by
  simp only [matmul]
  rw [Ideal.matmul_constant_zero_apply,
    ← Equiv.sum_comp (ValueIdx.contrEquiv1 dot_S2048x512_S512x512_S2048x512_1_0_0_1_n_n 512 rfl rfl).symm]
  refine Finset.sum_congr rfl fun kk _ => ?_
  have hk := ValueIdx.contrEquiv1_symm_val dot_S2048x512_S512x512_S2048x512_1_0_0_1_n_n 512 rfl rfl kk
  have el : dot_S2048x512_S512x512_S2048x512_1_0_0_1_n_n.lhsIdx (ix2 r e)
      ((ValueIdx.contrEquiv1 dot_S2048x512_S512x512_S2048x512_1_0_0_1_n_n 512 rfl rfl).symm kk) = ix2 r kk :=
    funext fun a => Fin.ext (by
      match a with
      | ⟨0, _⟩ => exact lhs_pv_0 _ _
      | ⟨1, _⟩ => exact (lhs_pv_1 _ _).trans hk)
  have er : dot_S2048x512_S512x512_S2048x512_1_0_0_1_n_n.rhsIdx (ix2 r e)
      ((ValueIdx.contrEquiv1 dot_S2048x512_S512x512_S2048x512_1_0_0_1_n_n 512 rfl rfl).symm kk) = ix2 kk e :=
    funext fun a => Fin.ext (by
      match a with
      | ⟨0, _⟩ => exact (rhs_pv_0 _ _).trans hk
      | ⟨1, _⟩ => exact rhs_pv_1 _ _)
  rw [el, er]

/-! ## The two reductions along a row -/

/-- The index a reduction over axis 1 inserts coordinate `kk` into row `r` at is `(r, kk)`. -/
theorem lift_row (r : Fin 2048) (kk : Fin 512) :
    (reduces_S2048x512_S2048 : S2048x512.Reduces [1] S2048).lift (ix1 r) kk = ix2 r kk := by
  funext a
  refine Fin.ext ?_
  match a with
  | ⟨0, _⟩ => rfl
  | ⟨1, _⟩ => rfl

/-- The sum along row `r`. -/
theorem rowsum_apply (src : FVec Ideal S2048x512 .f32) (r : Fin 2048) :
    multiReduction (F := Ideal) .add [1] S2048 src 0x00000000#32 reduces_S2048x512_S2048 (.inl rfl) rfl (ix1 r)
      = ∑ kk : Fin 512, src (ix2 r kk) := by
  refine (Ideal.multiReduction_add_single src _ reduces_S2048x512_S2048 (.inl rfl) rfl (ix1 r)).trans ?_
  exact Finset.sum_congr rfl fun kk _ => congrArg src (lift_row r kk)

/-- The maximum along row `r`, from -∞. -/
theorem rowmax_apply (src : FVec Ideal S2048x512 .f32) (r : Fin 2048) :
    multiReduction (F := Ideal) .maximumf [1] S2048 src 0xFF800000#32 reduces_S2048x512_S2048 (.inl rfl) rfl (ix1 r)
      = (Finset.univ : Finset (Fin 512)).fold max (Ideal.ofBits .f32 0xFF800000#32) (fun kk => src (ix2 r kk)) := by
  refine (Ideal.multiReduction_maximumf_single src _ reduces_S2048x512_S2048 (.inl rfl) rfl (ix1 r)).trans ?_
  exact congrArg (fun f => Finset.fold max (Ideal.ofBits .f32 0xFF800000#32) f (Finset.univ : Finset (Fin 512)))
    (funext fun kk => congrArg src (lift_row r kk))

/-! ## The three updates -/

/-- The new shift is the stored copy of the maximum payload. -/
theorem stepM_eq (x0 : Vec Ideal S1x2048x512 .bf16) (x1 : Vec Ideal S1x512x512 .bf16) (xs0 : Vec Ideal S2048x1 .f32) :
    stepM x0 x1 xs0 = k0_pay9 x0 x1 xs0 := by
  unfold stepM k0_pay2
  exact shapeCast_self _ _

theorem stepM_apply (x0 : Vec Ideal S1x2048x512 .bf16) (x1 : Vec Ideal S1x512x512 .bf16) (xs0 : Vec Ideal S2048x1 .f32)
    (r : Fin 2048) :
    stepM x0 x1 xs0 (ix2 r (0 : Fin 1))
      = max (xs0 (ix2 r (0 : Fin 1)))
          ((Finset.univ : Finset (Fin 512)).fold max (Ideal.ofBits .f32 0xFF800000#32) (fun kk => sc x0 x1 r kk)) := by
  rw [stepM_eq]
  unfold k0_pay9
  refine (maximumf_apply _ _ _).trans ?_
  refine congrArg (max (xs0 (ix2 r (0 : Fin 1)))) ?_
  refine (shapeCast_a_a1_apply _ _ r (0 : Fin 1)).trans ?_
  refine (rowmax_apply _ r).trans ?_
  exact congrArg (fun f => Finset.fold max (Ideal.ofBits .f32 0xFF800000#32) f (Finset.univ : Finset (Fin 512)))
    (funext fun kk => scores_apply x0 x1 r kk)

/-- The rescaling factor of row `r`: the exponential of the old shift minus the new. -/
theorem alpha_apply (x0 : Vec Ideal S1x2048x512 .bf16) (x1 : Vec Ideal S1x512x512 .bf16) (xs0 : Vec Ideal S2048x1 .f32)
    (r : Fin 2048) :
    k0_pay10 x0 x1 xs0 xs0 (ix2 r (0 : Fin 1))
      = Ideal.exp (xs0 (ix2 r (0 : Fin 1)) - stepM x0 x1 xs0 (ix2 r (0 : Fin 1))) := by
  rw [stepM_eq]
  unfold k0_pay10
  rfl

/-- The block's weights: the exponential of the score minus the new shift of its row. -/
theorem weight_apply (x0 : Vec Ideal S1x2048x512 .bf16) (x1 : Vec Ideal S1x512x512 .bf16) (xs0 : Vec Ideal S2048x1 .f32)
    (r : Fin 2048) (kk : Fin 512) :
    k0_pay11 x0 x1 xs0 (ix2 r kk) = Ideal.exp (sc x0 x1 r kk - stepM x0 x1 xs0 (ix2 r (0 : Fin 1))) := by
  rw [stepM_eq]
  unfold k0_pay11
  show Ideal.exp (k0_pay8 x0 x1 (ix2 r kk) - broadcastTo S2048x512 (k0_pay9 x0 x1 xs0) broadcasts_S2048x1_S2048x512 (ix2 r kk)) = _
  rw [scores_apply, broadcastTo_a1_ab_apply]

theorem stepL_apply (x0 : Vec Ideal S1x2048x512 .bf16) (x1 : Vec Ideal S1x512x512 .bf16) (xs0 xs1 : Vec Ideal S2048x1 .f32)
    (r : Fin 2048) :
    stepL x0 x1 xs0 xs1 (ix2 r (0 : Fin 1))
      = Ideal.exp (xs0 (ix2 r (0 : Fin 1)) - stepM x0 x1 xs0 (ix2 r (0 : Fin 1))) * xs1 (ix2 r (0 : Fin 1))
        + ∑ kk : Fin 512, Ideal.exp (sc x0 x1 r kk - stepM x0 x1 xs0 (ix2 r (0 : Fin 1))) := by
  unfold stepL k0_pay12
  rw [shapeCast_self]
  refine (addf_apply _ _ _).trans ?_
  refine congrArg₂ (· + ·) ?_ ?_
  · refine (mulf_apply _ _ _).trans ?_
    rw [alpha_apply]
  · refine (shapeCast_a_a1_apply _ _ r (0 : Fin 1)).trans ?_
    refine (rowsum_apply _ r).trans ?_
    exact Finset.sum_congr rfl fun kk _ => weight_apply x0 x1 xs0 r kk

theorem stepA_apply (x0 : Vec Ideal S1x2048x512 .bf16) (x1 x2 : Vec Ideal S1x512x512 .bf16) (xs0 : Vec Ideal S2048x1 .f32)
    (xs2 : Vec Ideal S2048x512 .f32) (r : Fin 2048) (e : Fin 512) :
    stepA x0 x1 x2 xs0 xs2 (ix2 r e)
      = Ideal.exp (xs0 (ix2 r (0 : Fin 1)) - stepM x0 x1 xs0 (ix2 r (0 : Fin 1))) * xs2 (ix2 r e)
        + ∑ kk : Fin 512, Ideal.exp (sc x0 x1 r kk - stepM x0 x1 xs0 (ix2 r (0 : Fin 1))) * x2 (ix3 (0 : Fin 1) kk e) := by
  unfold stepA k0_pay1
  rw [shapeCast_self]
  refine (addf_apply _ _ _).trans ?_
  refine congrArg₂ (· + ·) ?_ ?_
  · refine (mulf_apply _ _ _).trans ?_
    rw [broadcastTo_a1_ab_apply, alpha_apply]
  · refine (matmul_pv_apply _ _ r e).trans ?_
    refine Finset.sum_congr rfl fun kk _ => ?_
    refine congrArg₂ (· * ·) ?_ ?_
    · exact (truncf_apply (ψ := .bf16) (k0_pay11 x0 x1 xs0) bitsLt_bf16_f32 (ix2 r kk)).trans (weight_apply x0 x1 xs0 r kk)
    · unfold k0_pay7
      exact shapeCast_1ab_ab_apply _ _ kk e

/-- The output block: the weighted sums over the normalizer of their row. -/
theorem out_apply (a : Vec Ideal S2048x512 .f32) (l : Vec Ideal S2048x1 .f32) (r : Fin 2048) (e : Fin 512) :
    k0_pay3 a l (ix3 (0 : Fin 1) r e) = Ideal.div (a (ix2 r e)) (l (ix2 r (0 : Fin 1))) := by
  unfold k0_pay3
  refine (shapeCast_ab_1ab_apply _ _ (0 : Fin 1) r e).trans ?_
  refine (divf_apply _ _ _).trans ?_
  exact congrArg (Ideal.div (a (ix2 r e))) (broadcastTo_a1_ab_apply l _ r e)

/-- The carried arrays at the first key block: the shift -∞, the normalizer 0, the weighted sums 0. -/
theorem init_shift (r : Fin 2048) : k0_pay4 (F := Ideal) (ix2 r (0 : Fin 1)) = ⊥ := by
  unfold k0_pay4
  rw [shapeCast_self]
  exact Cert.Attn.ofBits_neg_inf

theorem init_norm (r : Fin 2048) : k0_pay5 (F := Ideal) (ix2 r (0 : Fin 1)) = 0 := by
  unfold k0_pay5
  rw [shapeCast_self]
  exact Ideal.ofBits_zero_f32

theorem init_sums (r : Fin 2048) (e : Fin 512) : k0_pay6 (F := Ideal) (ix2 r e) = 0 := by
  unfold k0_pay6
  rw [shapeCast_self]
  exact Ideal.ofBits_zero_f32

end Cert.KernelIdeal.Step

end
-- ==== Proof.RowStep.lean ====
/-
  One grid point's updates of one query row, on real data.

  When the entries the row reads are real numbers — the row's queries q, the block's keys k and values v — the scaled
  scores σ kk = (∑ d, q d · k kk d) · (1/8) are real, the block's maximum of them is a real, and so the new shift M'
  is a real. At the first key block the old shift is -∞ and exp (-∞ - M') = 0 multiplies the zero normalizer and the
  zero sums: the row ends at ∑ exp (σ - M') and ∑ exp (σ - M') · v. At a later block the old shift M, normalizer L
  and sums A are real and the row ends at exp (M - M') · L + ∑ exp (σ - M') and exp (M - M') · A + ∑ exp (σ - M') · v.
  The output entry is A / L for a normalizer L ≠ 0.
-/
import proofs.«152014_j75703093559829_2_alg».proof.Proof.RowOps

noncomputable section

open scoped BigOperators

namespace Cert.KernelIdeal.Step

open Idealize.ShloMosaic Idealize.ShloMosaic.ValueIdx Cert.KernelIdeal Cert.KernelIdeal.Gen Cert.Attn

/-- The real scaled score of a query row `q` against key row `kk` of a block of keys `k`. -/
def rscore (q : Fin 512 → ℝ) (k : Fin 512 → Fin 512 → ℝ) (kk : Fin 512) : ℝ := (∑ d : Fin 512, q d * k kk d) * (1 / 8)

theorem exp_sub_coe (a b : ℝ) : Ideal.exp ((a : EReal) - (b : EReal)) = ((Real.exp (a - b) : ℝ) : EReal) := by
  rw [← EReal.coe_sub, Ideal.exp_coe]

variable (x0 : Vec Ideal S1x2048x512 .bf16) (x1 x2 : Vec Ideal S1x512x512 .bf16) (r : Fin 2048)
  (q : Fin 512 → ℝ) (k v : Fin 512 → Fin 512 → ℝ)

/-- On real entries the score is the real score. -/
theorem sc_coe (hq : ∀ d, x0 (ix3 (0 : Fin 1) r d) = (q d : EReal)) (hk : ∀ kk d, x1 (ix3 (0 : Fin 1) kk d) = (k kk d : EReal))
    (kk : Fin 512) : sc x0 x1 r kk = (rscore q k kk : EReal) := by
  unfold sc rscore
  rw [ofBits_scale]
  have e : ∑ d : Fin 512, x0 (ix3 (0 : Fin 1) r d) * x1 (ix3 (0 : Fin 1) kk d) = ∑ d : Fin 512, ((q d * k kk d : ℝ) : EReal) :=
    Finset.sum_congr rfl fun d _ => by rw [hq, hk, EReal.coe_mul]
  rw [e, coe_sum, ← EReal.coe_mul]

/-- The block's maximum of the scores, from -∞, is a real. -/
theorem blockmax_coe (hq : ∀ d, x0 (ix3 (0 : Fin 1) r d) = (q d : EReal)) (hk : ∀ kk d, x1 (ix3 (0 : Fin 1) kk d) = (k kk d : EReal)) :
    ∃ B : ℝ, (Finset.univ : Finset (Fin 512)).fold max (Ideal.ofBits .f32 0xFF800000#32) (fun kk => sc x0 x1 r kk) = (B : EReal) := by
  rw [ofBits_neg_inf, (funext (sc_coe x0 x1 r q k hq hk) : (fun kk => sc x0 x1 r kk) = fun kk => ((rscore q k kk : ℝ) : EReal))]
  exact fold_max_coe Finset.univ (rscore q k) ⟨0, Finset.mem_univ _⟩

/-- The first key block: from the shift -∞, the normalizer 0 and the sums 0. -/
theorem step_first (xs0 xs1 : Vec Ideal S2048x1 .f32) (xs2 : Vec Ideal S2048x512 .f32)
    (hq : ∀ d, x0 (ix3 (0 : Fin 1) r d) = (q d : EReal)) (hk : ∀ kk d, x1 (ix3 (0 : Fin 1) kk d) = (k kk d : EReal))
    (hv : ∀ kk e, x2 (ix3 (0 : Fin 1) kk e) = (v kk e : EReal))
    (h0 : xs0 (ix2 r (0 : Fin 1)) = ⊥) (h1 : xs1 (ix2 r (0 : Fin 1)) = 0) (h2 : ∀ e, xs2 (ix2 r e) = 0) :
    ∃ M' : ℝ, stepM x0 x1 xs0 (ix2 r (0 : Fin 1)) = (M' : EReal)
      ∧ stepL x0 x1 xs0 xs1 (ix2 r (0 : Fin 1)) = ((∑ kk : Fin 512, Real.exp (rscore q k kk - M') : ℝ) : EReal)
      ∧ ∀ e, stepA x0 x1 x2 xs0 xs2 (ix2 r e) = ((∑ kk : Fin 512, Real.exp (rscore q k kk - M') * v kk e : ℝ) : EReal) := by
  obtain ⟨B, hB⟩ := blockmax_coe x0 x1 r q k hq hk
  have hM : stepM x0 x1 xs0 (ix2 r (0 : Fin 1)) = (B : EReal) := by
    rw [stepM_apply, h0, hB]; exact max_eq_right bot_le
  refine ⟨B, hM, ?_, fun e => ?_⟩
  · rw [stepL_apply, hM, h0, h1, mul_zero, zero_add]
    rw [← coe_sum]
    exact Finset.sum_congr rfl fun kk _ => by rw [sc_coe x0 x1 r q k hq hk, exp_sub_coe]
  · rw [stepA_apply, hM, h0, h2, mul_zero, zero_add]
    rw [← coe_sum]
    exact Finset.sum_congr rfl fun kk _ => by rw [sc_coe x0 x1 r q k hq hk, exp_sub_coe, hv, EReal.coe_mul]

/-- A later key block: from a real shift `M`, normalizer `L` and sums `A`. -/
theorem step_next (xs0 xs1 : Vec Ideal S2048x1 .f32) (xs2 : Vec Ideal S2048x512 .f32)
    (hq : ∀ d, x0 (ix3 (0 : Fin 1) r d) = (q d : EReal)) (hk : ∀ kk d, x1 (ix3 (0 : Fin 1) kk d) = (k kk d : EReal))
    (hv : ∀ kk e, x2 (ix3 (0 : Fin 1) kk e) = (v kk e : EReal))
    (M L : ℝ) (A : Fin 512 → ℝ)
    (h0 : xs0 (ix2 r (0 : Fin 1)) = (M : EReal)) (h1 : xs1 (ix2 r (0 : Fin 1)) = (L : EReal)) (h2 : ∀ e, xs2 (ix2 r e) = (A e : EReal)) :
    ∃ M' : ℝ, stepM x0 x1 xs0 (ix2 r (0 : Fin 1)) = (M' : EReal)
      ∧ stepL x0 x1 xs0 xs1 (ix2 r (0 : Fin 1))
          = ((Real.exp (M - M') * L + ∑ kk : Fin 512, Real.exp (rscore q k kk - M') : ℝ) : EReal)
      ∧ ∀ e, stepA x0 x1 x2 xs0 xs2 (ix2 r e)
          = ((Real.exp (M - M') * A e + ∑ kk : Fin 512, Real.exp (rscore q k kk - M') * v kk e : ℝ) : EReal) := by
  obtain ⟨B, hB⟩ := blockmax_coe x0 x1 r q k hq hk
  have hM : stepM x0 x1 xs0 (ix2 r (0 : Fin 1)) = ((max M B : ℝ) : EReal) := by
    rw [stepM_apply, h0, hB]
    rcases le_total M B with h | h
    · rw [max_eq_right h, max_eq_right (EReal.coe_le_coe_iff.mpr h)]
    · rw [max_eq_left h, max_eq_left (EReal.coe_le_coe_iff.mpr h)]
  refine ⟨max M B, hM, ?_, fun e => ?_⟩
  · rw [stepL_apply, hM, h0, h1, exp_sub_coe, EReal.coe_add, EReal.coe_mul, ← coe_sum]
    congr 1
    exact Finset.sum_congr rfl fun kk _ => by rw [sc_coe x0 x1 r q k hq hk, exp_sub_coe]
  · rw [stepA_apply, hM, h0, h2, exp_sub_coe, EReal.coe_add, EReal.coe_mul, ← coe_sum]
    congr 1
    exact Finset.sum_congr rfl fun kk _ => by rw [sc_coe x0 x1 r q k hq hk, exp_sub_coe, hv, EReal.coe_mul]

/-- The output entry: the row's sum over its normalizer. -/
theorem out_row (a : Vec Ideal S2048x512 .f32) (l : Vec Ideal S2048x1 .f32) (e : Fin 512) (A L : ℝ)
    (ha : a (ix2 r e) = (A : EReal)) (hl : l (ix2 r (0 : Fin 1)) = (L : EReal)) (hL : L ≠ 0) :
    k0_pay3 a l (ix3 (0 : Fin 1) r e) = ((A / L : ℝ) : EReal) := by
  rw [out_apply, ha, hl, Ideal.div_coe hL, ← EReal.coe_mul, mul_one_div]

end Cert.KernelIdeal.Step

end
-- ==== Proof.Blocks.lean ====
/-
  The windows' blocks as entries of the argument arrays, and the result array from its blocks.

  At grid point `t` the query window's block is rows (t / 8 % 2) · 2048 … of batch t / 16 of q, the key and value
  windows' blocks rows (t % 8) · 512 … of the same batch of k and v; a change of float format between the arguments
  and the windows' arrays is the identity over the extended reals. The output window's block at `t` is the query
  tile's rows of the result; it is written back at the last key block of each tile (t % 8 = 7), and these 8 blocks
  tile the result array.
-/
import proofs.«152014_j75703093559829_2_alg».proof.Proof.Step
import proofs.«152014_j75703093559829_2_alg».proof.Proof.Gen.KernelIdeal.Value
import Idealize.ShloMosaic.Lib.ValueIdx
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.Attn
open Idealize.ShloMosaic.Pipeline (Dat)

variable (m : (ℓ : Loc nD τ sig) → Buf (Elt Ideal) ℓ)

/-- The query window's block index at point `t`: (t / 16, t / 8 % 2, 0). -/
private theorem index_q : ∀ t : Fin cfg0.N,
    win0_0.index t 0 = t.val / 16 ∧ win0_0.index t 1 = t.val / 8 % 2 ∧ win0_0.index t 2 = 0 :=
  (by decide +kernel : ∀ t : Fin grid0.N, _)

/-- The key window's block index at point `t`: (t / 16, t % 8, 0). -/
private theorem index_k : ∀ t : Fin cfg0.N,
    win0_1.index t 0 = t.val / 16 ∧ win0_1.index t 1 = t.val % 8 ∧ win0_1.index t 2 = 0 :=
  (by decide +kernel : ∀ t : Fin grid0.N, _)

/-- The value window's block index at point `t`: (t / 16, t % 8, 0). -/
private theorem index_v : ∀ t : Fin cfg0.N,
    win0_2.index t 0 = t.val / 16 ∧ win0_2.index t 1 = t.val % 8 ∧ win0_2.index t 2 = 0 :=
  (by decide +kernel : ∀ t : Fin grid0.N, _)

/-- The output window's block index at point `t`: (t / 16, t / 8 % 2, 0). -/
private theorem index_o : ∀ t : Fin cfg0.N,
    win0_3.index t 0 = t.val / 16 ∧ win0_3.index t 1 = t.val / 8 % 2 ∧ win0_3.index t 2 = 0 :=
  (by decide +kernel : ∀ t : Fin grid0.N, _)

/-- The query window's array is q: the change of float format is the identity over the extended reals. -/
private theorem arr_q (c : Dev nD) :
    (V m c main_v0 : S4x4096x512.Idx → EReal) = m ((c : Thread nD τ).loc main_arg0) := by
  dsimp only [Gen.V, Gen.hostOps0]; after_results; rfl

/-- The key window's array is k. -/
private theorem arr_k (c : Dev nD) :
    (V m c main_v1 : S4x4096x512.Idx → EReal) = m ((c : Thread nD τ).loc main_arg1) := by
  dsimp only [Gen.V, Gen.hostOps0]; after_results; rfl

/-- The value window's array is v. -/
private theorem arr_v (c : Dev nD) :
    (V m c main_v2 : S4x4096x512.Idx → EReal) = m ((c : Thread nD τ).loc main_arg2) := by
  dsimp only [Gen.V, Gen.hostOps0]; after_results; rfl

/-- Two blocks [1, 2048, 512] that agree at every (0, r, e) are equal: the leading coordinate is 0. -/
private theorem block_ext (X Y : S1x2048x512.Idx → EReal)
    (h : ∀ (r : Fin 2048) (e : Fin 512), X (ix3 (0 : Fin 1) r e) = Y (ix3 (0 : Fin 1) r e)) : X = Y := by
  funext y
  have hlt : (y 0).val < 1 := (y 0).isLt
  have h0 : y 0 = (0 : Fin 1) := Fin.ext (by show (y 0).val = 0; omega)
  rw [eq_ix3 y, h0]
  exact h _ _

/-- The query window's block at point `t`, entry (r, d): q[t / 16, (t / 8 % 2) · 2048 + r, d]. -/
theorem iblk0_apply (c : Dev nD) (t : Fin cfg0.N) (r : Fin 2048) (d : Fin 512) :
    (iblk m c 0 t : Vec Ideal S1x2048x512 .bf16) (ix3 (0 : Fin 1) r d)
      = m ((c : Thread nD τ).loc main_arg0) (ix3 (bat t.val) (qrow t.val r) d) := by
  have hN : t.val < 64 := lt_of_lt_of_eq t.isLt N_0
  obtain ⟨h0, h1, h2⟩ := index_q t
  unfold iblk
  rw [View.read_apply]
  show V m c main_v0 _ = _
  rw [arr_q]
  congr 1
  -- a block's coordinate in the array is index × size + the coordinate inside the block
  funext a
  apply Fin.ext
  match a with
  | ⟨0, _⟩ => show win0_0.index t 0 * 1 + 1 * 0 = t.val / 16 % 4
              rw [h0]; omega
  | ⟨1, _⟩ => show win0_0.index t 1 * 2048 + 1 * r.val = t.val / 8 % 2 * 2048 + r.val
              rw [h1]; omega
  | ⟨2, _⟩ => show win0_0.index t 2 * 512 + 1 * d.val = d.val
              rw [h2]; omega

/-- The key window's block at point `t`, entry (kk, d): k[t / 16, (t % 8) · 512 + kk, d]. -/
theorem iblk1_apply (c : Dev nD) (t : Fin cfg0.N) (kk : Fin 512) (d : Fin 512) :
    (iblk m c 1 t : Vec Ideal S1x512x512 .bf16) (ix3 (0 : Fin 1) kk d)
      = m ((c : Thread nD τ).loc main_arg1) (ix3 (bat t.val) (key (t.val % 8) kk) d) := by
  have hN : t.val < 64 := lt_of_lt_of_eq t.isLt N_0
  have hk := kk.isLt
  obtain ⟨h0, h1, h2⟩ := index_k t
  unfold iblk
  rw [View.read_apply]
  show V m c main_v1 _ = _
  rw [arr_k]
  congr 1
  funext a
  apply Fin.ext
  match a with
  | ⟨0, _⟩ => show win0_1.index t 0 * 1 + 1 * 0 = t.val / 16 % 4
              rw [h0]; omega
  | ⟨1, _⟩ => show win0_1.index t 1 * 512 + 1 * kk.val = (t.val % 8 * 512 + kk.val) % 4096
              rw [h1]; omega
  | ⟨2, _⟩ => show win0_1.index t 2 * 512 + 1 * d.val = d.val
              rw [h2]; omega

/-- The value window's block at point `t`, entry (kk, e): v[t / 16, (t % 8) · 512 + kk, e]. -/
theorem iblk2_apply (c : Dev nD) (t : Fin cfg0.N) (kk : Fin 512) (e : Fin 512) :
    (iblk m c 2 t : Vec Ideal S1x512x512 .bf16) (ix3 (0 : Fin 1) kk e)
      = m ((c : Thread nD τ).loc main_arg2) (ix3 (bat t.val) (key (t.val % 8) kk) e) := by
  have hN : t.val < 64 := lt_of_lt_of_eq t.isLt N_0
  have hk := kk.isLt
  obtain ⟨h0, h1, h2⟩ := index_v t
  unfold iblk
  rw [View.read_apply]
  show V m c main_v2 _ = _
  rw [arr_v]
  congr 1
  funext a
  apply Fin.ext
  match a with
  | ⟨0, _⟩ => show win0_2.index t 0 * 1 + 1 * 0 = t.val / 16 % 4
              rw [h0]; omega
  | ⟨1, _⟩ => show win0_2.index t 1 * 512 + 1 * kk.val = (t.val % 8 * 512 + kk.val) % 4096
              rw [h1]; omega
  | ⟨2, _⟩ => show win0_2.index t 2 * 512 + 1 * e.val = e.val
              rw [h2]; omega

/-- If at every point that writes back (t % 8 = 7) the block left in the output window's buffer is, entry by
    entry, the query tile's rows of `G`, the result array ends holding `G`. -/
theorem final (c : Dev nD) (G : Arr)
    (h : ∀ (t : Fin cfg0.N), t.val % 8 = 7 → ∀ (r : Fin 2048) (e : Fin 512),
      ((outsAt0 m c t.val t.isLt).1 : Vec Ideal S1x2048x512 .f32) (ix3 (0 : Fin 1) r e) = G (ix3 (bat t.val) (qrow t.val r) e)) :
    (dats m 0 c).arrAt 3 cfg0.N = G := by
  refine (dats m 0 c).arrAt_eq_of_cover 3 G (fun t hf => ?_) (fun i => ?_)
  · -- what a writing point writes back is its block of G: the blocks tile the array, so nothing is cut
    rw [Value.flushed3]
    have hN : t.val < 64 := lt_of_lt_of_eq t.isLt N_0
    obtain ⟨h0, h1, h2⟩ := index_o t
    refine block_ext _ _ (fun r e => ?_)
    rw [View.read_apply]
    show ((outsAt0 m c t.val t.isLt).1 : Vec Ideal S1x2048x512 .f32) (ix3 (0 : Fin 1) r e)
      = G (((cfg0.win 3).blk t).view.emb (ix3 (0 : Fin 1) r e))
    rw [h t ((flush0_3 t).mp hf)]
    congr 1
    funext a
    apply Fin.ext
    match a with
    | ⟨0, _⟩ => show t.val / 16 % 4 = win0_3.index t 0 * 1 + 1 * 0
                rw [h0]; omega
    | ⟨1, _⟩ => show t.val / 8 % 2 * 2048 + r.val = win0_3.index t 1 * 2048 + 1 * r.val
                rw [h1]; omega
    | ⟨2, _⟩ => show e.val = win0_3.index t 2 * 512 + 1 * e.val
                rw [h2]; omega
  · -- entry (b, R, e) lies in the block written at the point b · 16 + (R / 2048) · 8 + 7
    have hb : (i 0).val < 4 := (i 0).isLt
    have hR : (i 1).val < 4096 := (i 1).isLt
    have hE : (i 2).val < 512 := (i 2).isLt
    obtain ⟨t, ht⟩ : ∃ t : Fin cfg0.N, t.val = (i 0).val * 16 + (i 1).val / 2048 * 8 + 7 :=
      ⟨⟨(i 0).val * 16 + (i 1).val / 2048 * 8 + 7, lt_of_lt_of_eq (by omega) N_0.symm⟩, rfl⟩
    obtain ⟨h0, h1, h2⟩ := index_o t
    refine ⟨t, (flush0_3 t).mpr (by omega), ?_⟩
    show i ∈ ((View.whole main_v3).slice (win0_3.rect t)).set
    rw [View.set_slice_whole, Rect.mem_set_unit]
    intro a
    match a with
    | ⟨0, _⟩ => show win0_3.index t 0 * 1 ≤ (i 0).val ∧ (i 0).val < win0_3.index t 0 * 1 + 1
                rw [h0]; omega
    | ⟨1, _⟩ => show win0_3.index t 1 * 2048 ≤ (i 1).val ∧ (i 1).val < win0_3.index t 1 * 2048 + 2048
                rw [h1]; omega
    | ⟨2, _⟩ => show win0_3.index t 2 * 512 ≤ (i 2).val ∧ (i 2).val < win0_3.index t 2 * 512 + 512
                rw [h2]; omega

end Cert.KernelIdeal.Blocks

end
-- ==== Proof.KernelValue.lean ====
/-
  The kernel's result array is dense softmax attention.

  Along the key-block axis of the grid the three carried arrays follow the online softmax. After the point with key
  block n of a query tile, row r of the tile holds a real shift M, the normalizer ∑ exp (s - M) and the weighted sums
  ∑ exp (s - M) · v over the keys of blocks 0 … n, where s are the scores of the row against those keys: at the
  first block this is what the update leaves from (-∞, 0, 0), and at a later block the update of such a state to a
  new shift M' is such a state for one block more, because exp (M - M') · exp (s - M) = exp (s - M'). At the last block the
  sums run over all 4096 keys; the output block is their quotient, which does not depend on the shift: the
  specification's entry. The output blocks written back at the last key blocks tile the result array.
-/
import proofs.«152014_j75703093559829_2_alg».proof.Proof.Pieces
import proofs.«152014_j75703093559829_2_alg».proof.Proof.RowStep
import proofs.«152014_j75703093559829_2_alg».proof.Proof.Blocks
import proofs.«152014_j75703093559829_2_alg».proof.Proof.Gen.KernelIdeal.Value

set_option maxRecDepth 16384

noncomputable section

open scoped BigOperators

namespace Cert.KernelIdeal.KV

open Idealize.ShloMosaic Idealize.ShloMosaic.TcCoe Idealize.SL.Sem Idealize.ShloMosaic.ValueIdx
open Cert.KernelIdeal Cert.KernelIdeal.Gen Cert.KernelIdeal.Step Cert.Attn
open Idealize.ShloMosaic.Pipeline (Dat)

variable (m : (ℓ : Loc nD τ sig) → Buf (Elt Ideal) ℓ) (ρ : Dev nD → PrngReg)

/-- The three argument arrays on device `c`. -/
abbrev argQ (c : Dev nD) : Arr := m ((c : Thread nD τ).loc main_arg0)
abbrev argK (c : Dev nD) : Arr := m ((c : Thread nD τ).loc main_arg1)
abbrev argV (c : Dev nD) : Arr := m ((c : Thread nD τ).loc main_arg2)

/-- What the point before `t` left. -/
abbrev prev (c : Dev nD) (t : Fin cfg0.N) :=
  outsAt0 m c (t.val - 1) (Nat.lt_of_le_of_lt (Nat.sub_le _ _) t.isLt)

/-- At the first key block of a tile the carried arrays end at the updates of (-∞, 0, 0). -/
theorem scr_first (c : Dev nD) (t : Fin cfg0.N) (h0 : t.val % 8 = 0) :
    (outsAt0 m c t.val t.isLt).2.1 = stepM (iblk m c 0 t) (iblk m c 1 t) (k0_pay4 (F := Ideal))
    ∧ (outsAt0 m c t.val t.isLt).2.2.1 = stepL (iblk m c 0 t) (iblk m c 1 t) (k0_pay4 (F := Ideal)) (k0_pay5 (F := Ideal))
    ∧ (outsAt0 m c t.val t.isLt).2.2.2 = stepA (iblk m c 0 t) (iblk m c 1 t) (iblk m c 2 t) (k0_pay4 (F := Ideal)) (k0_pay6 (F := Ideal)) := by
  have h1 : ¬t.val % 8 = 7 := by omega
  rw [outsAt0_A m c t h0 h1]
  dsimp only
  exact ⟨Pieces.scratch0_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), Pieces.scratch1_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), Pieces.scratch2_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- At a later key block they end at the updates of what the point before left. -/
theorem scr_next (c : Dev nD) (t : Fin cfg0.N) (h0 : ¬t.val % 8 = 0) :
    (outsAt0 m c t.val t.isLt).2.1 = stepM (iblk m c 0 t) (iblk m c 1 t) (prev m c t).2.1
    ∧ (outsAt0 m c t.val t.isLt).2.2.1 = stepL (iblk m c 0 t) (iblk m c 1 t) (prev m c t).2.1 (prev m c t).2.2.1
    ∧ (outsAt0 m c t.val t.isLt).2.2.2
        = stepA (iblk m c 0 t) (iblk m c 1 t) (iblk m c 2 t) (prev m c t).2.1 (prev m c t).2.2.2 := by
  by_cases h1 : t.val % 8 = 7
  · rw [outsAt0_C m c t h0 h1]
    dsimp only
    exact ⟨Pieces.scratch0_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2, Pieces.scratch1_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2, Pieces.scratch2_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2⟩
  · rw [outsAt0_B m c t h0 h1]
    dsimp only
    exact ⟨Pieces.scratch0_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2, Pieces.scratch1_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2, Pieces.scratch2_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (prev m c t).2.1 (prev m c t).2.2.1 (prev m c t).2.2.2⟩

/-- At the last key block the output block is the quotient of the carried arrays as the point leaves them. -/
theorem out_last (c : Dev nD) (t : Fin cfg0.N) (h1 : t.val % 8 = 7) :
    (outsAt0 m c t.val t.isLt).1 = k0_pay3 (outsAt0 m c t.val t.isLt).2.2.2 (outsAt0 m c t.val t.isLt).2.2.1 := by
  have h0 : ¬t.val % 8 = 0 := by omega
  rw [outsAt0_C m c t h0 h1]
  dsimp only
  rw [Pieces.out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2, Pieces.scratch2_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2, Pieces.scratch1_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (prev m c t).2.1 (prev m c t).2.2.1 (prev m c t).2.2.2]

variable (c : Dev nD) (hQ : Finite (argQ m c)) (hK : Finite (argK m c)) (hV : Finite (argV m c))

/-- The online-softmax state of the query tile's rows after grid point `t`. -/
def Inv (t : ℕ) (ht : t < cfg0.N) : Prop :=
  ∀ r : Fin 2048, ∃ M : ℝ,
    (outsAt0 m c t ht).2.1 (ix2 r (0 : Fin 1)) = (M : EReal)
    ∧ (outsAt0 m c t ht).2.2.1 (ix2 r (0 : Fin 1))
        = ((∑ n ∈ Finset.range (t % 8 + 1), ∑ kk : Fin 512,
            Real.exp (score (argQ m c) (argK m c) (bat t) (qrow t r) (key n kk) - M) : ℝ) : EReal)
    ∧ ∀ e : Fin 512, (outsAt0 m c t ht).2.2.2 (ix2 r e)
        = ((∑ n ∈ Finset.range (t % 8 + 1), ∑ kk : Fin 512,
            Real.exp (score (argQ m c) (argK m c) (bat t) (qrow t r) (key n kk) - M)
              * (argV m c (ix3 (bat t) (key n kk) e)).toReal : ℝ) : EReal)

include hQ hK hV

/-- The blocks' entries are the real parts of the arguments' entries. -/
theorem blk_q (t : Fin cfg0.N) (r : Fin 2048) (d : Fin 512) :
    (iblk m c 0 t : Vec Ideal S1x2048x512 .bf16) (ix3 (0 : Fin 1) r d)
      = (((argQ m c (ix3 (bat t.val) (qrow t.val r) d)).toReal : ℝ) : EReal) := by
  rw [Blocks.iblk0_apply, hQ.coe_toReal]

theorem blk_k (t : Fin cfg0.N) (kk : Fin 512) (d : Fin 512) :
    (iblk m c 1 t : Vec Ideal S1x512x512 .bf16) (ix3 (0 : Fin 1) kk d)
      = (((argK m c (ix3 (bat t.val) (key (t.val % 8) kk) d)).toReal : ℝ) : EReal) := by
  rw [Blocks.iblk1_apply, hK.coe_toReal]

theorem blk_v (t : Fin cfg0.N) (kk : Fin 512) (e : Fin 512) :
    (iblk m c 2 t : Vec Ideal S1x512x512 .bf16) (ix3 (0 : Fin 1) kk e)
      = (((argV m c (ix3 (bat t.val) (key (t.val % 8) kk) e)).toReal : ℝ) : EReal) := by
  rw [Blocks.iblk2_apply, hV.coe_toReal]

/-- The state after the first key block of a tile. -/
theorem inv_first (t : Fin cfg0.N) (h0 : t.val % 8 = 0) : Inv m c t.val t.isLt := by
  intro r
  obtain ⟨e0, e1, e2⟩ := scr_first m c t h0
  obtain ⟨M', hM, hL, hA⟩ := step_first (iblk m c 0 t) (iblk m c 1 t) (iblk m c 2 t) r
    (fun d => (argQ m c (ix3 (bat t.val) (qrow t.val r) d)).toReal)
    (fun kk d => (argK m c (ix3 (bat t.val) (key (t.val % 8) kk) d)).toReal)
    (fun kk e => (argV m c (ix3 (bat t.val) (key (t.val % 8) kk) e)).toReal)
    (k0_pay4 (F := Ideal)) (k0_pay5 (F := Ideal)) (k0_pay6 (F := Ideal)) (blk_q m c hQ hK hV t r) (blk_k m c hQ hK hV t) (blk_v m c hQ hK hV t)
    (init_shift r) (init_norm r) (fun e => init_sums r e)
  have hr : Finset.range (t.val % 8 + 1) = Finset.range 1 := by rw [h0]
  refine ⟨M', by rw [e0]; exact hM, ?_, fun e => ?_⟩
  · rw [e1, hL, hr, Finset.sum_range_one, ← h0]
    rfl
  · rw [e2, hA e, hr, Finset.sum_range_one, ← h0]
    rfl

/-- The state after a later key block, from the state after the block before. -/
theorem inv_next (t : Fin cfg0.N) (h0 : ¬t.val % 8 = 0)
    (ih : Inv m c (t.val - 1) (Nat.lt_of_le_of_lt (Nat.sub_le _ _) t.isLt)) : Inv m c t.val t.isLt := by
  intro r
  have hb : bat (t.val - 1) = bat t.val := Fin.ext (by show (t.val - 1) / 16 % 4 = t.val / 16 % 4; omega)
  have hqr : qrow (t.val - 1) r = qrow t.val r :=
    Fin.ext (by show (t.val - 1) / 8 % 2 * 2048 + r.val = t.val / 8 % 2 * 2048 + r.val; omega)
  have hn : (t.val - 1) % 8 + 1 = t.val % 8 := by omega
  obtain ⟨M, iM, iL, iA⟩ := ih r
  rw [hb, hqr, hn] at iL
  simp only [hb, hqr, hn] at iA
  obtain ⟨e0, e1, e2⟩ := scr_next m c t h0
  obtain ⟨M', hM, hL, hA⟩ := step_next (iblk m c 0 t) (iblk m c 1 t) (iblk m c 2 t) r
    (fun d => (argQ m c (ix3 (bat t.val) (qrow t.val r) d)).toReal)
    (fun kk d => (argK m c (ix3 (bat t.val) (key (t.val % 8) kk) d)).toReal)
    (fun kk e => (argV m c (ix3 (bat t.val) (key (t.val % 8) kk) e)).toReal)
    (prev m c t).2.1 (prev m c t).2.2.1 (prev m c t).2.2.2
    (blk_q m c hQ hK hV t r) (blk_k m c hQ hK hV t) (blk_v m c hQ hK hV t) M _ _ iM iL iA
  refine ⟨M', by rw [e0]; exact hM, ?_, fun e => ?_⟩
  · rw [e1, hL]
    congr 1
    exact online_step_one (t.val % 8) (fun n kk => score (argQ m c) (argK m c) (bat t.val) (qrow t.val r) (key n kk)) M M'
  · rw [e2, hA e]
    congr 1
    exact online_step (t.val % 8) (fun n kk => score (argQ m c) (argK m c) (bat t.val) (qrow t.val r) (key n kk))
      (fun n kk => (argV m c (ix3 (bat t.val) (key n kk) e)).toReal) M M'

/-- The state after every point. -/
theorem inv : ∀ (t : ℕ) (ht : t < cfg0.N), Inv m c t ht
  | 0, ht => inv_first m c hQ hK hV ⟨0, ht⟩ rfl
  | t + 1, ht => by
    by_cases h0 : (t + 1) % 8 = 0
    · exact inv_first m c hQ hK hV ⟨t + 1, ht⟩ h0
    · exact inv_next m c hQ hK hV ⟨t + 1, ht⟩ h0 (inv t (Nat.lt_of_succ_lt ht))

/-- At the last key block of a tile the output block's entries are the specification's. -/
theorem out_entry (t : Fin cfg0.N) (h1 : t.val % 8 = 7) (r : Fin 2048) (e : Fin 512) :
    ((outsAt0 m c t.val t.isLt).1 : Vec Ideal S1x2048x512 .f32) (ix3 (0 : Fin 1) r e)
      = attn (argQ m c) (argK m c) (argV m c) (ix3 (bat t.val) (qrow t.val r) e) := by
  obtain ⟨M, -, iL, iA⟩ := inv m c hQ hK hV t.val t.isLt r
  have hr : Finset.range (t.val % 8 + 1) = Finset.range 8 := by rw [h1]
  rw [hr] at iL
  have iAe := iA e
  rw [hr] at iAe
  have hpos : (0 : ℝ) < ∑ n ∈ Finset.range 8, ∑ kk : Fin 512,
      Real.exp (score (argQ m c) (argK m c) (bat t.val) (qrow t.val r) (key n kk) - M) :=
    Finset.sum_pos (fun n _ => Finset.sum_pos (fun kk _ => Real.exp_pos _) ⟨0, Finset.mem_univ _⟩) ⟨0, by simp⟩
  rw [out_last m c t h1, out_row r _ _ e _ _ iAe iL hpos.ne']
  show _ = ((num (argQ m c) (argK m c) (argV m c) (bat t.val) (qrow t.val r) e / den (argQ m c) (argK m c) (bat t.val) (qrow t.val r) : ℝ) : EReal)
  congr 1
  exact blocks_quot (fun j => score (argQ m c) (argK m c) (bat t.val) (qrow t.val r) j)
    (fun j => (argV m c (ix3 (bat t.val) j e)).toReal) M

/-- The result array after the run. -/
theorem final : (dats m 0 c).arrAt 3 cfg0.N = attn (argQ m c) (argK m c) (argV m c) :=
  Blocks.final m c _ (fun t h1 r e => out_entry m c hQ hK hV t h1 r e)

end Cert.KernelIdeal.KV

end
-- ==== Proof.RefValue.lean ====
/-
  The reference is dense softmax attention.

  The reference permutes the sequence axis of q, k and v by π : a·256 + c ↦ c·16 + a (a < 16, c < 256), computes
  dense attention with the numerically stable softmax (the row maximum M subtracted before the exponential, each
  weight divided by the row's normalizer, then the weighted sum of the values), and applies π⁻¹ to the rows of the
  result. Row π⁻¹(r) of the permuted problem has the scores of row r against the keys in the order π; a sum over
  all keys does not depend on their order, and the quotient does not depend on the shift M, which only has to be a
  real number: so row r of the result is the specification's row r.
-/
import proofs.«152014_j75703093559829_2_alg».proof.Proof.Spec
import proofs.«152014_j75703093559829_2_alg».proof.Proof.Online
import proofs.«152014_j75703093559829_2_alg».proof.Proof.Gen.ReferenceIdeal.Read

noncomputable section

open scoped BigOperators

namespace Cert.Attn

open Idealize.ShloMosaic Idealize.ShloMosaic.ValueIdx

open Cert.ReferenceIdeal Cert.ReferenceIdeal.Read

/-- The permutation of the sequence axis: position a·256 + c (a < 16, c < 256) holds row c·16 + a. -/
def perm : Fin 4096 ≃ Fin 4096 where
  toFun j := ⟨(j.val % 256) * 16 + j.val / 256, by have := j.isLt; omega⟩
  invFun j := ⟨(j.val % 16) * 256 + j.val / 16, by have := j.isLt; omega⟩
  left_inv j := Fin.ext (by have := j.isLt; show ((j.val % 256) * 16 + j.val / 256) % 16 * 256 + ((j.val % 256) * 16 + j.val / 256) / 16 = j.val; omega)
  right_inv j := Fin.ext (by have := j.isLt; show ((j.val % 16) * 256 + j.val / 16) % 256 * 16 + ((j.val % 16) * 256 + j.val / 16) / 256 = j.val; omega)

/-- The permuted array read at an index: reshape, transpose, reshape move row π j to position j. -/
theorem permuted_apply (x : Arr) (b : Fin 4) (j : Fin 4096) (d : Fin 512) :
    val_main_v2 (F := Ideal) x (ix3 b j d) = x (ix3 b (perm j) d) := by
  rw [val_main_v2_apply, val_main_v1_apply, val_main_v0_apply]
  have hb := b.isLt; have hj := j.isLt; have hd := d.isLt
  have e0 : ((b.val * 4096 + j.val) * 512 + d.val) / 2097152 = b.val := by omega
  have e1 : ((b.val * 4096 + j.val) * 512 + d.val) / 131072 % 16 = j.val / 256 := by omega
  have e2 : ((b.val * 4096 + j.val) * 512 + d.val) / 512 % 256 = j.val % 256 := by omega
  have e3 : ((b.val * 4096 + j.val) * 512 + d.val) % 512 = d.val := by omega
  refine congrArg x (funext fun a => Fin.ext (by
    match a with
    | ⟨0, _⟩ =>
      show ((((((b.val * 4096 + j.val) * 512 + d.val) / 2097152) * 256 + ((b.val * 4096 + j.val) * 512 + d.val) / 512 % 256) * 16 + ((b.val * 4096 + j.val) * 512 + d.val) / 131072 % 16) * 512 + ((b.val * 4096 + j.val) * 512 + d.val) % 512) / 2097152 = b.val
      rw [e0, e1, e2, e3]; omega
    | ⟨1, _⟩ =>
      show ((((((b.val * 4096 + j.val) * 512 + d.val) / 2097152) * 256 + ((b.val * 4096 + j.val) * 512 + d.val) / 512 % 256) * 16 + ((b.val * 4096 + j.val) * 512 + d.val) / 131072 % 16) * 512 + ((b.val * 4096 + j.val) * 512 + d.val) % 512) / 512 % 4096 = (j.val % 256) * 16 + j.val / 256
      rw [e0, e1, e2, e3]; omega
    | ⟨2, _⟩ =>
      show ((((((b.val * 4096 + j.val) * 512 + d.val) / 2097152) * 256 + ((b.val * 4096 + j.val) * 512 + d.val) / 512 % 256) * 16 + ((b.val * 4096 + j.val) * 512 + d.val) / 131072 % 16) * 512 + ((b.val * 4096 + j.val) * 512 + d.val) % 512) % 512 = d.val
      rw [e0, e1, e2, e3]; omega))

/-- The same for the keys' stage. -/
theorem permuted_apply5 (x : Arr) (b : Fin 4) (j : Fin 4096) (d : Fin 512) :
    val_main_v5 (F := Ideal) x (ix3 b j d) = x (ix3 b (perm j) d) := permuted_apply x b j d

/-- The same for the values' stage. -/
theorem permuted_apply8 (x : Arr) (b : Fin 4) (j : Fin 4096) (d : Fin 512) :
    val_main_v8 (F := Ideal) x (ix3 b j d) = x (ix3 b (perm j) d) := permuted_apply x b j d

/-- The scaled score stage at an index is the specification's score of the two permuted rows. -/
theorem score_apply (x0 x1 : Arr) (h0 : Finite x0) (h1 : Finite x1) (b : Fin 4) (r j : Fin 4096) :
    val_main_v11 (F := Ideal) x0 x1 (ix3 b r j) = ((score x0 x1 b (perm r) (perm j) : ℝ) : EReal) := by
  rw [val_main_v11_apply, val_main_v9_apply, val_main_v10_apply, val_main_cst_apply, Ideal.mulf_def,
    Ideal.ofBits_def, ofBits_scale]
  have e : ∀ k : Fin 512, val_main_v2 (F := Ideal) x0 (lidx_main_v9 (ix3 b r j) k)
        * val_main_v5 (F := Ideal) x1 (ridx_main_v9 (ix3 b r j) k)
      = (((x0 (ix3 b (perm r) k)).toReal * (x1 (ix3 b (perm j) k)).toReal : ℝ) : EReal) := by
    intro k
    have el : lidx_main_v9 (ix3 b r j) k = ix3 b r k :=
      funext fun a => by match a with | ⟨0, _⟩ => rfl | ⟨1, _⟩ => rfl | ⟨2, _⟩ => rfl
    have er : ridx_main_v9 (ix3 b r j) k = ix3 b j k :=
      funext fun a => by match a with | ⟨0, _⟩ => rfl | ⟨1, _⟩ => rfl | ⟨2, _⟩ => rfl
    rw [el, er, permuted_apply, permuted_apply5, EReal.coe_mul, h0.coe_toReal, h1.coe_toReal]
  rw [Finset.sum_congr rfl (fun k _ => e k), coe_sum, ← EReal.coe_mul]
  rfl

/-- Every entry of the score stage is a real number. -/
theorem score_real (x0 x1 : Arr) (h0 : Finite x0) (h1 : Finite x1) (i : S4x4096x4096.Idx) :
    ∃ s : ℝ, val_main_v11 (F := Ideal) x0 x1 i = (s : EReal) := by
  obtain ⟨b, r, j, rfl⟩ : ∃ (b : Fin 4) (r j : Fin 4096), i = ix3 b r j :=
    ⟨i 0, i 1, i 2, eq_ix3 (n0 := 4) (n1 := 4096) (n2 := 4096) i⟩
  exact ⟨_, score_apply x0 x1 h0 h1 b r j⟩

/-- The shift of a row, the maximum of -∞ and the row's scores, is a real number. -/
theorem rowmax_real (x0 x1 : Arr) (h0 : Finite x0) (h1 : Finite x1) (i : S4x4096.Idx) :
    ∃ M : ℝ, val_main_v14 (F := Ideal) x0 x1 i = (M : EReal) := by
  have hred : S4x4096x4096.Reduces [2] S4x4096 := by decide
  rw [val_main_v14_apply, val_main_v13_apply, val_main_cst_1_apply, Ideal.maximumf_def, Ideal.ofBits_def,
    ofBits_neg_inf, max_eq_right bot_le]
  unfold val_main_v12
  rw [Host.reduce_eq_fold_single FloatOps.maximumf _ _ Gen.reducesTo_S4x4096x4096_S4x4096_d2 hred Gen.h_S_,
    val_main_cst_0_apply, Ideal.ofBits_def, ofBits_neg_inf]
  have hf : (val_main_v11 (F := Ideal) x0 x1 ∘ hred.lift i)
      = fun k => (((val_main_v11 (F := Ideal) x0 x1 (hred.lift i k)).toReal : ℝ) : EReal) := by
    funext k
    obtain ⟨s, hs⟩ := score_real x0 x1 h0 h1 (hred.lift i k)
    show val_main_v11 (F := Ideal) x0 x1 (hred.lift i k) = _
    rw [hs, EReal.toReal_coe]
  rw [hf]
  exact fold_max_coe Finset.univ _ ⟨⟨0, by decide⟩, Finset.mem_univ _⟩

/-- The shift of row `r` of batch `b` of the permuted problem. -/
def shift (x0 x1 : Arr) (b : Fin 4) (r : Fin 4096) : ℝ := (val_main_v14 (F := Ideal) x0 x1 (ix2 b r)).toReal

/-- The shift stage at a row is that real number. -/
theorem shift_apply (x0 x1 : Arr) (h0 : Finite x0) (h1 : Finite x1) (b : Fin 4) (r : Fin 4096) :
    val_main_v14 (F := Ideal) x0 x1 (ix2 b r) = ((shift x0 x1 b r : ℝ) : EReal) := by
  obtain ⟨M, hM⟩ := rowmax_real x0 x1 h0 h1 (ix2 b r)
  rw [shift, hM, EReal.toReal_coe]

/-- The exponential stage at an index: the exponential of the shifted score. -/
theorem exp_apply (x0 x1 : Arr) (h0 : Finite x0) (h1 : Finite x1) (b : Fin 4) (r j : Fin 4096) :
    val_main_v18 (F := Ideal) x0 x1 (ix3 b r j)
      = ((Real.exp (score x0 x1 b (perm r) (perm j) - shift x0 x1 b r) : ℝ) : EReal) := by
  have e16 : idx_main_v15 (idx_main_v16 (ix3 b r j)) = ix2 b r :=
    funext fun a => by match a with | ⟨0, _⟩ => rfl | ⟨1, _⟩ => rfl
  rw [val_main_v18_apply, val_main_v17_apply, val_main_v16_apply, val_main_v15_apply, e16,
    shift_apply x0 x1 h0 h1, score_apply x0 x1 h0 h1, Ideal.subf_def, Ideal.hostUnary_exp_def, ← EReal.coe_sub,
    Ideal.exp_coe]

/-- The normalizer of a row: the sum over every key position of the exponentials. -/
theorem norm_apply (x0 x1 : Arr) (h0 : Finite x0) (h1 : Finite x1) (b : Fin 4) (r : Fin 4096) :
    val_main_v19 (F := Ideal) x0 x1 (ix2 b r)
      = ((∑ k : Fin 4096, Real.exp (score x0 x1 b (perm r) (perm k) - shift x0 x1 b r) : ℝ) : EReal) := by
  rw [val_main_v19_apply, val_main_cst_2_apply, Ideal.ofBits_def, Ideal.ofBits_zero_f32, zero_add]
  have e : ∀ k : Fin 4096, val_main_v18 (F := Ideal) x0 x1 (idx_main_v19 (ix2 b r) k)
      = ((Real.exp (score x0 x1 b (perm r) (perm k) - shift x0 x1 b r) : ℝ) : EReal) := by
    intro k
    have ei : idx_main_v19 (ix2 b r) k = ix3 b r k :=
      funext fun a => by match a with | ⟨0, _⟩ => rfl | ⟨1, _⟩ => rfl | ⟨2, _⟩ => rfl
    rw [ei, exp_apply x0 x1 h0 h1]
  rw [Finset.sum_congr rfl (fun k _ => e k), coe_sum]

/-- The weight stage at an index: the exponential divided by the row's normalizer. -/
theorem weight_apply (x0 x1 : Arr) (h0 : Finite x0) (h1 : Finite x1) (b : Fin 4) (r j : Fin 4096) :
    val_main_v22 (F := Ideal) x0 x1 (ix3 b r j)
      = ((Real.exp (score x0 x1 b (perm r) (perm j) - shift x0 x1 b r)
          / ∑ k : Fin 4096, Real.exp (score x0 x1 b (perm r) (perm k) - shift x0 x1 b r) : ℝ) : EReal) := by
  have e21 : idx_main_v20 (idx_main_v21 (ix3 b r j)) = ix2 b r :=
    funext fun a => by match a with | ⟨0, _⟩ => rfl | ⟨1, _⟩ => rfl
  have hL : (∑ k : Fin 4096, Real.exp (score x0 x1 b (perm r) (perm k) - shift x0 x1 b r)) ≠ 0 :=
    (Finset.sum_pos (fun _ _ => Real.exp_pos _) ⟨0, Finset.mem_univ _⟩).ne'
  rw [val_main_v22_apply, val_main_v21_apply, val_main_v20_apply, e21, norm_apply x0 x1 h0 h1,
    exp_apply x0 x1 h0 h1, Ideal.hostDivf_def, Ideal.div_coe hL, ← EReal.coe_mul, mul_one_div]

/-- The weighted sum of the permuted values is dense attention of the permuted query row over all keys: the
    quotient does not depend on the shift, and a sum over all keys does not depend on their order. -/
theorem out_apply (x0 x1 x2 : Arr) (h0 : Finite x0) (h1 : Finite x1) (h2 : Finite x2) (b : Fin 4) (r : Fin 4096)
    (e : Fin 512) :
    val_main_v23 (F := Ideal) x0 x1 x2 (ix3 b r e)
      = ((num x0 x1 x2 b (perm r) e / den x0 x1 b (perm r) : ℝ) : EReal) := by
  rw [val_main_v23_apply]
  have t : ∀ k : Fin 4096, val_main_v22 (F := Ideal) x0 x1 (lidx_main_v23 (ix3 b r e) k)
        * val_main_v8 (F := Ideal) x2 (ridx_main_v23 (ix3 b r e) k)
      = (((Real.exp (score x0 x1 b (perm r) (perm k) - shift x0 x1 b r)
            / ∑ k' : Fin 4096, Real.exp (score x0 x1 b (perm r) (perm k') - shift x0 x1 b r))
          * (x2 (ix3 b (perm k) e)).toReal : ℝ) : EReal) := by
    intro k
    have el : lidx_main_v23 (ix3 b r e) k = ix3 b r k :=
      funext fun a => by match a with | ⟨0, _⟩ => rfl | ⟨1, _⟩ => rfl | ⟨2, _⟩ => rfl
    have er : ridx_main_v23 (ix3 b r e) k = ix3 b k e :=
      funext fun a => by match a with | ⟨0, _⟩ => rfl | ⟨1, _⟩ => rfl | ⟨2, _⟩ => rfl
    rw [el, er, weight_apply x0 x1 h0 h1, permuted_apply8, EReal.coe_mul, h2.coe_toReal]
  rw [Finset.sum_congr rfl (fun k _ => t k), coe_sum]
  refine congrArg (fun z : ℝ => (z : EReal)) ?_
  refine (normalized_sum (fun k : Fin 4096 => score x0 x1 b (perm r) (perm k))
    (fun k : Fin 4096 => (x2 (ix3 b (perm k) e)).toReal) (shift x0 x1 b r)).trans ?_
  unfold num den
  rw [← Equiv.sum_comp perm (fun j => Real.exp (score x0 x1 b (perm r) j) * (x2 (ix3 b j e)).toReal),
    ← Equiv.sum_comp perm (fun j => Real.exp (score x0 x1 b (perm r) j))]

/-- On arrays of finite entries the reference's result term is dense softmax attention. -/
theorem ref_eq (x0 x1 x2 : Arr) (h0 : Finite x0) (h1 : Finite x1) (h2 : Finite x2) :
    Cert.ReferenceIdeal.Read.val_main_v26 (F := Ideal) x0 x1 x2 = attn x0 x1 x2 := by
  funext i
  obtain ⟨b, r, e, rfl⟩ : ∃ (b : Fin 4) (r : Fin 4096) (e : Fin 512), i = ix3 b r e :=
    ⟨i 0, i 1, i 2, eq_ix3 (n0 := 4) (n1 := 4096) (n2 := 512) i⟩
  have hb := b.isLt; have hr := r.isLt; have he := e.isLt
  have e0 : ((b.val * 4096 + r.val) * 512 + e.val) / 2097152 = b.val := by omega
  have e1 : ((b.val * 4096 + r.val) * 512 + e.val) / 8192 % 256 = r.val / 16 := by omega
  have e2 : ((b.val * 4096 + r.val) * 512 + e.val) / 512 % 16 = r.val % 16 := by omega
  have e3 : ((b.val * 4096 + r.val) * 512 + e.val) % 512 = e.val := by omega
  have ei : idx_main_v24 (idx_main_v25 (idx_main_v26 (ix3 b r e))) = ix3 b (perm.symm r) e :=
    funext fun a => Fin.ext (by
      match a with
      | ⟨0, _⟩ =>
        show ((((((b.val * 4096 + r.val) * 512 + e.val) / 2097152) * 16 + ((b.val * 4096 + r.val) * 512 + e.val) / 512 % 16) * 256 + ((b.val * 4096 + r.val) * 512 + e.val) / 8192 % 256) * 512 + ((b.val * 4096 + r.val) * 512 + e.val) % 512) / 2097152 = b.val
        rw [e0, e1, e2, e3]; omega
      | ⟨1, _⟩ =>
        show ((((((b.val * 4096 + r.val) * 512 + e.val) / 2097152) * 16 + ((b.val * 4096 + r.val) * 512 + e.val) / 512 % 16) * 256 + ((b.val * 4096 + r.val) * 512 + e.val) / 8192 % 256) * 512 + ((b.val * 4096 + r.val) * 512 + e.val) % 512) / 512 % 4096 = (r.val % 16) * 256 + r.val / 16
        rw [e0, e1, e2, e3]; omega
      | ⟨2, _⟩ =>
        show ((((((b.val * 4096 + r.val) * 512 + e.val) / 2097152) * 16 + ((b.val * 4096 + r.val) * 512 + e.val) / 512 % 16) * 256 + ((b.val * 4096 + r.val) * 512 + e.val) / 8192 % 256) * 512 + ((b.val * 4096 + r.val) * 512 + e.val) % 512) % 512 = e.val
        rw [e0, e1, e2, e3]; omega)
  rw [val_main_v26_apply, val_main_v25_apply, val_main_v24_apply, ei, out_apply x0 x1 x2 h0 h1 h2,
    Equiv.apply_symm_apply]
  rfl

end Cert.Attn

end
-- ==== Proof.Finite.lean ====
/-
  The precondition says every entry of the three argument arrays is a real number: each array passes the test
  |x| < +∞ at every index, and an extended real whose absolute value is below +∞ is neither infinity.
-/
import proofs.«152014_j75703093559829_2_alg».proof.Proof.Spec
import proofs.«152014_j75703093559829_2_alg».proof.Pre_finite_inputs
import proofs.«152014_j75703093559829_2_alg».proof.Proof.Gen.Pre_finite_inputs
import Idealize.ShloMosaic.Lib.ReduceAll

noncomputable section

namespace Cert.Attn

open Idealize.ShloMosaic Idealize.ShloMosaic.ValueIdx

/-- The rank-0 shape has one index. -/
instance subsingleton_scalar_idx : Subsingleton Cert.Pre_finite_inputs.S_.Idx :=
  ⟨fun _ _ => funext fun d => d.elim0⟩

/-- The constant the test compares against is +∞. -/
theorem ofBits_pos_inf : Ideal.ofBits .f32 0x7F800000#32 = (⊤ : EReal) := by
  simp [Ideal.ofBits, Ideal.ieee]

/-- An extended real whose absolute value max x (-x) is strictly below +∞ is a real number: at -∞ and at +∞
    the maximum is +∞. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One array: where the conjunction over every index of |x| < +∞ is the bit 1, every entry is a real number. -/
theorem finite_of_all [Cert.Pre_finite_inputs.Facts] (x : Arr)
    (h : Host.reduce IntOp.andi
        (cmpf .olt (Host.absf (F := Ideal) (φ := .f32) x)
          (broadcastInDim Cert.Pre_finite_inputs.S4x4096x512 ![] Cert.Pre_finite_inputs.Facts.bcast_S_S4x4096x512
            (constant (F := Ideal) Cert.Pre_finite_inputs.S_ .f32 0x7F800000#32)))
        (constantI Cert.Pre_finite_inputs.S_ 1 1#1)
        Cert.Pre_finite_inputs.Facts.reducesTo_S4x4096x512_S_d0_1_2 Cert.Pre_finite_inputs.Facts.h_S_ ix0 = 1#1) :
    Finite x := by
  intro i
  have e := Host.reduce_andi_all _ _ _ _ _ h i
  have e' : Ideal.cmp .olt (max (x i) (-(x i))) (Ideal.ofBits .f32 0x7F800000#32) = 1#1 := e
  rw [ofBits_pos_inf] at e'
  exact real_of_abs_lt_top _ e'

/-- Where the finiteness test holds of three arrays, every entry of each is a real number. -/
theorem finite_of_pre [Cert.Pre_finite_inputs.Facts] (x0 x1 x2 : Arr)
    (h : Cert.Pre_finite_inputs.fn (F := Ideal) x0 x1 x2 = fun _ => 1#1) :
    Finite x0 ∧ Finite x1 ∧ Finite x2 := by
  have e := congrFun h ix0
  unfold Cert.Pre_finite_inputs.fn at e
  dsimp only [andi] at e
  rw [IntOp.andi_eq_one, IntOp.andi_eq_one] at e
  obtain ⟨⟨h0, h1⟩, h2⟩ := e
  exact ⟨finite_of_all x0 h0, finite_of_all x1 h1, finite_of_all x2 h2⟩

end Cert.Attn

end
-- ==== Proof.lean ====
/-
  A flash-attention kernel against dense softmax attention under a permutation of the sequence axis.

  The kernel tiles the 4096 query rows of each of 4 batches in 2 tiles of 2048 and the 4096 key rows in 8 blocks of
  512, and carries per query row a running shift, normalizer and weighted sums across the key blocks (the online
  softmax); at the last key block it divides. The reference permutes the sequence axis of q, k and v, computes dense
  attention with the row maximum as shift, and undoes the permutation on the result.

  Over the extended reals, on arguments of finite entries, both are
      out[b, r, e] = (∑ j, exp (s b r j) · v[b, j, e]) / (∑ j, exp (s b r j)),   s b r j = (∑ d, q[b, r, d] · k[b, j, d]) / 8:
  the kernel because rescaling partial sums from shift M to shift M' multiplies them by exp (M - M'), so that after
  the last block they are the full sums at some real shift, and the quotient of the full sums does not depend on the
  shift; the reference because a sum over all keys does not depend on their order, and the same permutation moves
  queries and result rows. Finiteness is what makes the shifts real numbers and the laws of exp and of the quotient
  hold; it is the stated precondition.

  The kernel's narrowing of its arguments to a shorter float format is the identity over the extended reals, so the
  idealized kernel is the kernel's own text and the ideal pass rewrote nothing.
-/
import proofs.«152014_j75703093559829_2_alg».proof.Defs
import proofs.«152014_j75703093559829_2_alg».proof.Proof.Gen.Kernel
import proofs.«152014_j75703093559829_2_alg».proof.Proof.Gen.Kernel.Frame
import proofs.«152014_j75703093559829_2_alg».proof.Proof.Gen.KernelIdeal
import proofs.«152014_j75703093559829_2_alg».proof.Proof.Gen.KernelIdeal.Frame
import proofs.«152014_j75703093559829_2_alg».proof.Proof.Gen.KernelIdeal.Value
import proofs.«152014_j75703093559829_2_alg».proof.Proof.Gen.ReferenceIdeal
import proofs.«152014_j75703093559829_2_alg».proof.Proof.Gen.ReferenceIdeal.Run
import proofs.«152014_j75703093559829_2_alg».proof.Proof.Gen.ReferenceIdeal.Read
import proofs.«152014_j75703093559829_2_alg».proof.Proof.Gen.Pre_finite_inputs
import proofs.«152014_j75703093559829_2_alg».proof.Proof.KernelValue
import proofs.«152014_j75703093559829_2_alg».proof.Proof.RefValue
import proofs.«152014_j75703093559829_2_alg».proof.Proof.Finite

noncomputable section

namespace Cert.Proof

open Idealize.ShloMosaic Idealize.ShloMosaic.TcCoe Idealize.SL.Sem Cert.Attn

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with dense softmax attention of the arguments, which agree and are finite. -/
theorem algebraic : Cert.algebraic_KernelIdeal_ReferenceIdeal := by
  intro m ρ m' ρ' hpre hagree
  have hfin := fun c => finite_of_pre _ _ _ (hpre c)
  refine ⟨fun c => attn (Cert.KernelIdeal.KV.argQ m c) (Cert.KernelIdeal.KV.argK m c) (Cert.KernelIdeal.KV.argV m c), ?_, ?_⟩
  · exact (θ_run Cert.KernelIdeal.defs _ _).mono
      (fun r h c => ⟨(h c).1.trans (Cert.KernelIdeal.KV.final m c (hfin c).1 (hfin c).2.1 (hfin c).2.2), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v26_eq (F := Ideal) _ _ _).trans ?_
    rw [(hagree c).1, (hagree c).2.1, (hagree c).2.2]
    exact ref_eq _ _ _ (hfin c).1 (hfin c).2.1 (hfin c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
